-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x64 : Shape := ⟨2, ![128, 64]⟩
abbrev S1x64 : Shape := ⟨2, ![1, 64]⟩
abbrev S64 : Shape := ⟨1, ![64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x64 : S_.BroadcastsInDim S128x64 (![] : Fin 0 → Fin S128x64.rank)
  reducesTo_S128x64_S_d0_1 : S128x64.ReducesTo [0, 1] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_v28 : IVec S_ 1) (main_v33 : IVec S4096x4096 1) : IVec S_ 1 :=
  let main_c_12 : IVec S_ 1 := constantI S_ 1 1#1
  let main_v34 : IVec S_ 1 := (fun x v => Host.reduce IntOp.andi x v reducesTo_S4096x4096_S_d0_1 h_S_) main_v33 main_c_12
  let main_v35 : IVec S_ 1 := andi main_v28 main_v34
  main_v35

def fn_part1 {F : FTy → Type} [FloatOps F] (main_arg1 : FVec F S4096x4096 .f32) (main_arg4 : FVec F S1x64 .f32) (main_arg5 : FVec F S64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S4096x4096 .f32 := broadcastInDim S4096x4096 ![] bcast_S_S4096x4096 main_cst_10
  let main_v30 : IVec S4096x4096 1 := cmpf .oeq main_arg1 main_v29
  let main_cst_11 : FVec F S_ .f32 := constant S_ .f32 0x3F800000#32
  let main_v31 : FVec F S4096x4096 .f32 := broadcastInDim S4096x4096 ![] bcast_S_S4096x4096 main_cst_11
  let main_v32 : IVec S4096x4096 1 := cmpf .oeq main_arg1 main_v31
  let main_v33 : IVec S4096x4096 1 := ori main_v30 main_v32
  fn_part2 (F := F) main_v28 main_v33

def fn {F : FTy → Type} [FloatOps F] (main_arg0 : FVec F S4096x128 .f32) (main_arg1 : FVec F S4096x4096 .f32) (main_arg2 : FVec F S128x64 .f32) (main_arg3 : FVec F S1x64 .f32) (main_arg4 : FVec F S1x64 .f32) (main_arg5 : FVec F S64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg1 main_arg4 main_arg5 main_v13 main_v16
-- ==== Kernel.lean ====
abbrev S4096x128 : Shape := ⟨2, ![4096, 128]⟩
abbrev S4096x4096 : Shape := ⟨2, ![4096, 4096]⟩
abbrev S128x64 : Shape := ⟨2, ![128, 64]⟩
abbrev S1x64 : Shape := ⟨2, ![1, 64]⟩
abbrev S64 : Shape := ⟨1, ![64]⟩
abbrev S4096x64 : Shape := ⟨2, ![4096, 64]⟩
abbrev S512x4096 : Shape := ⟨2, ![512, 4096]⟩
abbrev S512x64 : Shape := ⟨2, ![512, 64]⟩
abbrev S1x4096 : Shape := ⟨2, ![1, 4096]⟩
abbrev S4096x1 : Shape := ⟨2, ![4096, 1]⟩
abbrev S4096x63 : Shape := ⟨2, ![4096, 63]⟩
abbrev S512 : Shape := ⟨1, ![512]⟩
abbrev S512x1 : Shape := ⟨2, ![512, 1]⟩
abbrev S512x128 : Shape := ⟨2, ![512, 128]⟩

abbrev nBuf : Space → Nat
  | .hbm => 8
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S1x64, .f32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S4096x64, .f32⟩
  | .local _ .vmem, ⟨0, _⟩ => ⟨S4096x128, .f32⟩
  | .local _ .vmem, ⟨1, _⟩ => ⟨S128x64, .f32⟩
  | .local _ .vmem, ⟨2, _⟩ => ⟨S1x64, .f32⟩
  | .local _ .vmem, ⟨3, _⟩ => ⟨S1x64, .f32⟩
  | .local _ .vmem, ⟨4, _⟩ => ⟨S512x4096, .f32⟩
  | .local _ .vmem, ⟨5, _⟩ => ⟨S512x4096, .f32⟩
  | .local _ .vmem, ⟨6, _⟩ => ⟨S1x64, .f32⟩
  | .local _ .vmem, ⟨7, _⟩ => ⟨S512x64, .f32⟩
  | .local _ .vmem, ⟨8, _⟩ => ⟨S512x64, .f32⟩
  | .local _ .vmem, ⟨9, _⟩ => ⟨S4096x128, .f32⟩
  | .local _ .vmem, ⟨10, _⟩ => ⟨S1x4096, .f32⟩
  | .local _ .vmem, ⟨11, _⟩ => ⟨S1x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  inb_S4096x128_S4096x128_0_0 : ∀ a, (![0, 0] : Fin 2 → Nat) a + S4096x128.size a ≤ S4096x128.size a
  h_S4096x128 : 0 < S4096x128.numel
  inb_S128x64_S128x64_0_0 : ∀ a, (![0, 0] : Fin 2 → Nat) a + S128x64.size a ≤ S128x64.size a
  h_S128x64 : 0 < S128x64.numel
  concatenates_S4096x64_S4096x1_S4096x63_S4096x128_d1 : Shape.Concatenates [S4096x64, S4096x1, S4096x63] S4096x128 1
  shapeCasts_S4096x128_S4096x128 : S4096x128.ShapeCasts S4096x128
  inb_S1x64_S1x64_0_0 : ∀ a, (![0, 0] : Fin 2 → Nat) a + S1x64.size a ≤ S1x64.size a
  h_S1x64 : 0 < S1x64.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  h_S512x64 : 0 < S512x64.numel
  broadcasts_S1x64_S512x64 : S1x64.Broadcasts S512x64
  reduces_S512x64_S512 : S512x64.Reduces [1] S512
  shapeCasts_S512_S512x1 : S512.ShapeCasts S512x1
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  slices_S512x128_o0_64_S512x1 : S512x128.Slices ![0, 64] S512x1
  slices_S512x128_o0_0_S512x64 : S512x128.Slices ![0, 0] S512x64
  broadcasts_S512x1_S512x64 : S512x1.Broadcasts S512x64
  shapeCasts_S1x64_S1x64 : S1x64.ShapeCasts S1x64
  inb_S512x64_S512x64_0_0 : ∀ a, (![0, 0] : Fin 2 → Nat) a + S512x64.size a ≤ S512x64.size a
  dot_S4096x128_S128x64_S4096x64_1_0_0_1_n_n_wf : DotDims.WF S4096x128 S128x64 S4096x64 [1] [0] [0] [1] [] []
  dot_S1x64_S4096x64_S1x4096_1_1_0_0_n_n_wf : DotDims.WF S1x64 S4096x64 S1x4096 [1] [1] [0] [0] [] []
  dot_S512x4096_S4096x128_S512x128_1_0_0_1_n_n_wf : DotDims.WF S512x4096 S4096x128 S512x128 [1] [0] [0] [1] [] []
  hrank0 : 0 < grid0.rank
  k0_off1_inb : ∀ i : grid0.Coords, ∀ a, (k0_off1 i) a + S512x64.size a ≤ S4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S4096x64.size a
  hwx0_6 : ∀ i : grid0.Coords, EltTy.bits .f32 = 32 ∨ (Rect.block (s := S4096x64) S512x64.size (cc0_transform_6 i) (hinb0_6 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S1x64_S4096x64_S1x4096_1_1_0_0_n_n : DotDims S1x64 S4096x64 S1x4096 where
  lhsContracting := [1]
  rhsContracting := [1]
  lhsNonContracting := [0]
  rhsNonContracting := [0]
  lhsBatch := []
  rhsBatch := []
  wf := dot_S1x64_S4096x64_S1x4096_1_1_0_0_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x64 : Shape := ⟨2, ![128, 64]⟩
abbrev S1x64 : Shape := ⟨2, ![1, 64]⟩
abbrev S64 : Shape := ⟨1, ![64]⟩
abbrev S4096x64 : Shape := ⟨2, ![4096, 64]⟩
abbrev S64x1 : Shape := ⟨2, ![64, 1]⟩
abbrev S4096x1 : Shape := ⟨2, ![4096, 1]⟩
abbrev S1x4096 : Shape := ⟨2, ![1, 4096]⟩
abbrev S_ : Shape := ⟨0, ![]⟩
abbrev S4096 : Shape := ⟨1, ![4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S1x64, .f32⟩
  | .hbm, ⟨4, _⟩ => ⟨S1x64, .f32⟩
  | .hbm, ⟨5, _⟩ => ⟨S64, .f32⟩
  | .hbm, ⟨6, _⟩ => ⟨S4096x64, .f32⟩
  | .hbm, ⟨7, _⟩ => ⟨S64x1, .f32⟩
  | .hbm, ⟨8, _⟩ => ⟨S4096x1, .f32⟩
  | .hbm, ⟨9, _⟩ => ⟨S64x1, .f32⟩
  | .hbm, ⟨10, _⟩ => ⟨S4096x1, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .i1⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x64, .f32⟩
  | .hbm, ⟨39, _⟩ => ⟨S1x64, .f32⟩
  | .hbm, ⟨40, _⟩ => ⟨S4096x64, .f32⟩
  | .hbm, ⟨41, _⟩ => ⟨S4096x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  transposes_S1x64_S64x1_1_0 : S1x64.Transposes [1, 0] S64x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  dot_S4096x4096_S4096x64_S4096x64_1_0_0_1_n_n_wf : DotDims.WF S4096x4096 S4096x64 S4096x64 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.Pieces.lean ====
/-
  What one run of the kernel body leaves behind, as plain functions of the values it loaded.
  At the first grid point the body fills three carried buffers — the projected features padded to 128 lanes
  with a column of ones, and the two rows of exponentials of the right attention scores — and then
  computes its block of the output from those same values; at every later point it computes its block
  from the carried buffers as the point before left them and stores nothing else.
-/
import proofs.«105371_g26414048870624_cont_sun_m_177_26_alg».proof.Proof.Gen.KernelIdeal.Value
import Idealize.ShloMosaic.Lib.Pipeline.Value
import Idealize.ShloMosaic.Lib.ValueIdx

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a rank-2 whole-buffer access. -/
theorem hz2 : (![0, 0] : Fin 2 → Nat) = fun _ => 0 := by funext a; fin_cases a <;> rfl

/-- The 512 rows of the padded feature matrix that belong to grid point `i`, first 64 lanes. -/
def rowsOf (i : grid0.Coords) (X : Vec F S4096x128 .f32) : Vec F S512x64 .f32 :=
  View.ld X (Rect.unit (s := S4096x128) (k0_off1 i) S512x64.size (k0_off1_inb i))

/-- The output block as a function of the padded features `X`, the left attention row, the two rows of
    exponentials, the adjacency block and the bias row. -/
def blockOf (i : grid0.Coords) (X : Vec F S4096x128 .f32) (al : Vec F S1x64 .f32) (u v : Vec F S1x4096 .f32)
    (adj : Vec F S512x4096 .f32) (b : Vec F S1x64 .f32) : Vec F S512x64 .f32 :=
  k0_pay6 (rowsOf i X) al u v adj X b

/-- First point: the padded feature matrix is stored whole. -/
theorem soutA0 (c : Dev nD) (i : grid0.Coords) (arg1 : Memref sig .tc .vmem S4096x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x4096 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S4096x128 .f32) (harg8 : arg8.IsWhole) (arg9 : Memref sig .tc .vmem S1x4096 .f32) (harg9 : arg9.IsWhole) (arg10 : Memref sig .tc .vmem S1x4096 .f32) (harg10 : arg10.IsWhole) (hc0 : cond0_0 i) (x0 : Vec F S4096x128 .f32) (x1 : Vec F S128x64 .f32) (x2 : Vec F S1x64 .f32) (x3 : Vec F S1x64 .f32) (x4 : Vec F S512x4096 .f32) (x5 : Vec F S1x64 .f32) :
    sout0_A_0 c i arg1 harg1 arg2 harg2 arg3 harg3 arg4 harg4 arg5 harg5 arg6 harg6 arg7 harg7 arg8 harg8 arg9 harg9 arg10 harg10 hc0 x0 x1 x2 x3 x4 x5 = k0_pay2 x0 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2]
  simp only [View.readAt_eq_ld, harg1.read_unread, harg2.read_unread, View.ld_unit_zero (S := S4096x128) hz2, View.ld_unit_zero (S := S128x64) hz2]

/-- First point: the row of exponentials of the right scores is stored whole. -/
theorem soutA1 (c : Dev nD) (i : grid0.Coords) (arg1 : Memref sig .tc .vmem S4096x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x4096 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S4096x128 .f32) (harg8 : arg8.IsWhole) (arg9 : Memref sig .tc .vmem S1x4096 .f32) (harg9 : arg9.IsWhole) (arg10 : Memref sig .tc .vmem S1x4096 .f32) (harg10 : arg10.IsWhole) (hc0 : cond0_0 i) (x0 : Vec F S4096x128 .f32) (x1 : Vec F S128x64 .f32) (x2 : Vec F S1x64 .f32) (x3 : Vec F S1x64 .f32) (x4 : Vec F S512x4096 .f32) (x5 : Vec F S1x64 .f32) :
    sout0_A_1 c i arg1 harg1 arg2 harg2 arg3 harg3 arg4 harg4 arg5 harg5 arg6 harg6 arg7 harg7 arg8 harg8 arg9 harg9 arg10 harg10 hc0 x0 x1 x2 x3 x4 x5 = k0_pay4 x0 x1 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2]
  simp only [View.readAt_eq_ld, harg1.read_unread, harg2.read_unread, harg4.read_unread, View.ld_unit_zero (S := S4096x128) hz2, View.ld_unit_zero (S := S128x64) hz2, View.ld_unit_zero (S := S1x64) hz2]

/-- First point: the row of exponentials of the scaled right scores is stored whole. -/
theorem soutA2 (c : Dev nD) (i : grid0.Coords) (arg1 : Memref sig .tc .vmem S4096x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x4096 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S4096x128 .f32) (harg8 : arg8.IsWhole) (arg9 : Memref sig .tc .vmem S1x4096 .f32) (harg9 : arg9.IsWhole) (arg10 : Memref sig .tc .vmem S1x4096 .f32) (harg10 : arg10.IsWhole) (hc0 : cond0_0 i) (x0 : Vec F S4096x128 .f32) (x1 : Vec F S128x64 .f32) (x2 : Vec F S1x64 .f32) (x3 : Vec F S1x64 .f32) (x4 : Vec F S512x4096 .f32) (x5 : Vec F S1x64 .f32) :
    sout0_A_2 c i arg1 harg1 arg2 harg2 arg3 harg3 arg4 harg4 arg5 harg5 arg6 harg6 arg7 harg7 arg8 harg8 arg9 harg9 arg10 harg10 hc0 x0 x1 x2 x3 x4 x5 = k0_pay5 x0 x1 x3 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2]
  simp only [View.readAt_eq_ld, harg1.read_unread, harg2.read_unread, harg4.read_unread, View.ld_unit_zero (S := S4096x128) hz2, View.ld_unit_zero (S := S128x64) hz2, View.ld_unit_zero (S := S1x64) hz2]

/-- First point: the output block is computed from the values just stored. -/
theorem outA6 (c : Dev nD) (i : grid0.Coords) (arg1 : Memref sig .tc .vmem S4096x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x4096 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S4096x128 .f32) (harg8 : arg8.IsWhole) (arg9 : Memref sig .tc .vmem S1x4096 .f32) (harg9 : arg9.IsWhole) (arg10 : Memref sig .tc .vmem S1x4096 .f32) (harg10 : arg10.IsWhole) (hc0 : cond0_0 i) (x0 : Vec F S4096x128 .f32) (x1 : Vec F S128x64 .f32) (x2 : Vec F S1x64 .f32) (x3 : Vec F S1x64 .f32) (x4 : Vec F S512x4096 .f32) (x5 : Vec F S1x64 .f32) :
    out0_A_6 c i arg1 harg1 arg2 harg2 arg3 harg3 arg4 harg4 arg5 harg5 arg6 harg6 arg7 harg7 arg8 harg8 arg9 harg9 arg10 harg10 hc0 x0 x1 x2 x3 x4 x5
      = blockOf i (k0_pay2 x0 x1) x2 (k0_pay4 x0 x1 x3) (k0_pay5 x0 x1 x3) x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2]
  simp only [View.readCov_unit_zero (S := S1x4096) _ hz2, View.readCov_unit_zero (S := S4096x128) _ hz2]
  simp only [View.readAt_eq_ld]
  rw [View.read_writes_eq_canon _ _ _ (fun y => ⟨_, List.mem_singleton_self _, View.mem_set_unit_zero hz2 Facts₀.inb_S4096x128_S4096x128_0_0 y⟩), View.canon_unit_zero hz2]
  simp only [harg1.read_unread, harg2.read_unread, harg3.read_unread, harg4.read_unread, harg5.read_unread, harg6.read_unread,
    View.ld_unit_zero (S := S4096x128) hz2, View.ld_unit_zero (S := S128x64) hz2, View.ld_unit_zero (S := S1x64) hz2,
    View.ld_unit_zero (S := S512x4096) hz2]
  rfl

/-- A later point: the output block is computed from the carried buffers. -/
theorem outB6 (c : Dev nD) (i : grid0.Coords) (arg1 : Memref sig .tc .vmem S4096x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x4096 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S4096x128 .f32) (harg8 : arg8.IsWhole) (arg9 : Memref sig .tc .vmem S1x4096 .f32) (harg9 : arg9.IsWhole) (arg10 : Memref sig .tc .vmem S1x4096 .f32) (harg10 : arg10.IsWhole) (hc0 : ¬cond0_0 i) (x0 : Vec F S4096x128 .f32) (x1 : Vec F S128x64 .f32) (x2 : Vec F S1x64 .f32) (x3 : Vec F S1x64 .f32) (x4 : Vec F S512x4096 .f32) (x5 : Vec F S1x64 .f32) (xs0 : Vec F S4096x128 .f32) (xs1 : Vec F S1x4096 .f32) (xs2 : Vec F S1x4096 .f32) :
    out0_B_6 c i arg1 harg1 arg2 harg2 arg3 harg3 arg4 harg4 arg5 harg5 arg6 harg6 arg7 harg7 arg8 harg8 arg9 harg9 arg10 harg10 hc0 x0 x1 x2 x3 x4 x5 xs0 xs1 xs2 = blockOf i xs0 x2 xs1 xs2 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xs0 xs1 xs2)]
  unfold kernelRun0_B
  dsimp only
  sl_unfold_words
  rw [View.canon_unit_zero hz2]
  simp only [View.readAt_eq_ld, harg3.read_unread, harg5.read_unread, harg6.read_unread, harg8.read_unread, harg9.read_unread, harg10.read_unread,
    View.ld_unit_zero (S := S4096x128) hz2, View.ld_unit_zero (S := S1x64) hz2, View.ld_unit_zero (S := S1x4096) hz2,
    View.ld_unit_zero (S := S512x4096) hz2]
  rfl

end Cert.KernelIdeal.Pieces

end
-- ==== Proof.Carried.lean ====
/-
  The carried buffers never change after the first grid point, and every point's output block is one
  function of the whole argument arrays and that point's block of the adjacency matrix.
  The four windows on the features, the projection matrix, the two attention rows and the bias row have a
  constant index map, so the block each point sees is the whole array.
-/
import proofs.«105371_g26414048870624_cont_sun_m_177_26_alg».proof.Proof.Pieces

set_option maxRecDepth 16384

noncomputable section

namespace Cert.KernelIdeal.Carried

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- The printed index maps, decided over the eight grid points: six windows stay at block (0, 0); the adjacency
    window and the output window are at block row `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem iblk0_eq (c : Dev nD) (t : Fin cfg0.N) : iblk m c 0 t = (fun y : S4096x128.Idx => V m c main_arg0 y) := by
  funext y
  have e0 := (idx_facts t).1
  have e1 := (idx_facts t).2.1
  show V m c main_arg0 (((cfg0.win 0).blk t).view.emb y) = V m c main_arg0 y
  refine congrArg _ (funext fun a => Fin.ext ?_)
  match a with
  | ⟨0, _⟩ => show win0_0.index t (0 : Fin 2) * 4096 + 1 * (y 0).val = (y 0).val; omega
  | ⟨1, _⟩ => show win0_0.index t (1 : Fin 2) * 128 + 1 * (y 1).val = (y 1).val; omega

theorem iblk1_eq (c : Dev nD) (t : Fin cfg0.N) : iblk m c 1 t = (fun y : S128x64.Idx => V m c main_arg2 y) := by
  funext y
  have e0 := (idx_facts t).2.2.1
  have e1 := (idx_facts t).2.2.2.1
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

theorem iblk2_eq (c : Dev nD) (t : Fin cfg0.N) : iblk m c 2 t = (fun y : S1x64.Idx => V m c main_arg3 y) := by
  funext y
  have e0 := (idx_facts t).2.2.2.2.1
  have e1 := (idx_facts t).2.2.2.2.2.1
  show V m c main_arg3 (((cfg0.win 2).blk t).view.emb y) = V m c main_arg3 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem iblk3_eq (c : Dev nD) (t : Fin cfg0.N) : iblk m c 3 t = (fun y : S1x64.Idx => V m c main_arg4 y) := by
  funext y
  have e0 := (idx_facts t).2.2.2.2.2.2.1
  have e1 := (idx_facts t).2.2.2.2.2.2.2.1
  show V m c main_arg4 (((cfg0.win 3).blk t).view.emb y) = V m c main_arg4 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem iblk5_eq (c : Dev nD) (t : Fin cfg0.N) : iblk m c 5 t = (fun y : S1x64.Idx => V m c main_call0_v0 y) := by
  funext y
  have e0 := (idx_facts t).2.2.2.2.2.2.2.2.2.2.1
  have e1 := (idx_facts t).2.2.2.2.2.2.2.2.2.2.2.1
  show V m c main_call0_v0 (((cfg0.win 5).blk t).view.emb y) = V m c main_call0_v0 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The padded projected features, as the first point stores them. -/
def feat (c : Dev nD) : Vec F S4096x128 .f32 := k0_pay2 (fun y : S4096x128.Idx => V m c main_arg0 y) (fun y : S128x64.Idx => V m c main_arg2 y)
/-- The exponentials of the right scores. -/
def expR (c : Dev nD) : Vec F S1x4096 .f32 := k0_pay4 (fun y : S4096x128.Idx => V m c main_arg0 y) (fun y : S128x64.Idx => V m c main_arg2 y) (fun y : S1x64.Idx => V m c main_arg4 y)
/-- The exponentials of the scaled right scores. -/
def expRs (c : Dev nD) : Vec F S1x4096 .f32 := k0_pay5 (fun y : S4096x128.Idx => V m c main_arg0 y) (fun y : S128x64.Idx => V m c main_arg2 y) (fun y : S1x64.Idx => V m c main_arg4 y)

/-- After every grid point the three carried buffers hold what the first point stored. -/
theorem carried (c : Dev nD) (n : ℕ) (hn : n < cfg0.N) :
    (outsAt0 m c n hn).2 = (feat m c, expR m c, expRs m c) := by
  induction n with
  | zero =>
    rw [show outsAt0 m c 0 hn = _ from outsAt0_A m c ⟨0, hn⟩ (Nat.zero_mod _)]
    dsimp only
    rw [soutA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
      soutA1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
      soutA2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)]
    rw [iblk0_eq, iblk1_eq, iblk3_eq]
    rfl
  | succ n ih =>
    have hN : n + 1 < 8 := lt_of_lt_of_eq hn N_0
    have h0 : ¬ (n + 1) % 8 = 0 := by omega
    rw [show outsAt0 m c (n + 1) hn = _ from outsAt0_B m c ⟨n + 1, hn⟩ h0]
    unfold sout0_B_0 sout0_B_1 sout0_B_2
    dsimp only
    have ih' := ih (Nat.lt_of_succ_lt hn)
    show ((outsAt0 m c n _).2.1, (outsAt0 m c n _).2.2.1, (outsAt0 m c n _).2.2.2) = _
    rw [ih']

/-- Every point's output block: the body's last payload of the carried values, the left attention row, the point's
    adjacency block and the bias row. -/
theorem out_eq (c : Dev nD) (t : Fin cfg0.N) :
    (outsAt0 m c t.val t.isLt).1
      = blockOf (grid0.coords t) (feat m c) (fun y : S1x64.Idx => V m c main_arg3 y) (expR m c) (expRs m c) (iblk m c 4 t)
          (fun y : S1x64.Idx => V m c main_call0_v0 y) := by
  by_cases h0 : t.val % 8 = 0
  · rw [outsAt0_A m c t h0]
    dsimp only
    rw [outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t)]
    rw [iblk0_eq, iblk1_eq, iblk2_eq, iblk3_eq, iblk5_eq]
    rfl
  · rw [outsAt0_B m c t h0]
    dsimp only
    rw [outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2]
    rw [carried m c (t.val - 1) (Nat.lt_of_le_of_lt (Nat.sub_le _ _) t.isLt)]
    rw [iblk2_eq, iblk5_eq]

end Cert.KernelIdeal.Carried

end
-- ==== Proof.Spec.lean ====
/-
  The two row formulas that have to agree, written once over the extended reals.
  For a fixed output row with left score `el`, right scores `er j`, adjacency entries `adj j` and one feature
  column `xk j`:
  * the masked weight as the reference spells it, `exp (leaky (el + er j))` where the adjacency entry is not zero
    and `0` elsewhere, each weight divided by the row's L1 mass (floored at `ε`) BEFORE the weighted sum;
  * the masked weight as the kernel spells it, `max (exp el · exp (er j)) (exp (c·el) · exp (c·er j))` TIMES the
    adjacency entry, the weighted sum divided ONCE by the sum of the weights (floored at `ε`).
-/
import Idealize.ShloMosaic.PureOps.Ideal

noncomputable section

namespace Cert.GatSpec

open Idealize.ShloMosaic

/-- The leaky rectifier with slope `c` on the negative side. -/
def leaky (c t : EReal) : EReal := Scalar.select (Ideal.cmp .oge t 0) t (c * t)

/-- The reference's masked attention weight. -/
def refW (c el er adj : EReal) : EReal :=
  Scalar.select (Ideal.cmp .une adj 0) (Ideal.exp (leaky c (el + er))) 0

/-- The kernel's masked attention weight. -/
def kerW (c el er adj : EReal) : EReal :=
  max (Ideal.exp el * Ideal.exp er) (Ideal.exp (c * el) * Ideal.exp (c * er)) * adj

/-- The reference's row: normalise each weight by the floored L1 mass, then sum against the features. -/
def refRow {n : ℕ} (c ε el : EReal) (er adj xk : Fin n → EReal) : EReal :=
  ∑ j, Ideal.div (refW c el (er j) (adj j))
      (max (0 + ∑ j', max (refW c el (er j') (adj j')) (-(refW c el (er j') (adj j')))) ε) * xk j

/-- The kernel's row: sum the weighted features, divide once by the floored sum of the weights. -/
def kerRow {n : ℕ} (c ε el : EReal) (er adj xk : Fin n → EReal) : EReal :=
  Ideal.div (∑ j, kerW c el (er j) (adj j) * xk j) (max (∑ j, kerW c el (er j) (adj j) * 1) ε)

end Cert.GatSpec

end
-- ==== Proof.PayIdx.lean ====
/-
  The body's arithmetic read at one index, on the extended reals.
  The projected features are a sum over the 128 input features; the padded matrix has them in its first 64 lanes,
  ones in lane 64; the right scores are a sum over the 64 projected features; the weighted sums of the last step
  are sums over the 4096 nodes. The layout operations in between (a row broadcast down the rows, a column broadcast
  along the lanes, a keepdims cast, a slice of lanes) only move an index.
-/
import proofs.«105371_g26414048870624_cont_sun_m_177_26_alg».proof.Proof.Gen.KernelIdeal.Skeleton
import proofs.«105371_g26414048870624_cont_sun_m_177_26_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.PayIdx

open Cert.KernelIdeal Cert.KernelIdeal.Gen Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along the lanes of an `[a, b]` array, read at row `p`: the sum over the lane coordinate. -/
theorem laneSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-! ## The three matrix products -/

theorem feat_apply_lnon (i : S4096x64.Idx) (q : dot_S4096x128_S128x64_S4096x64_1_0_0_1_n_n.contr.Idx) : (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem feat_apply_rnon (i : S4096x64.Idx) (q : dot_S4096x128_S128x64_S4096x64_1_0_0_1_n_n.contr.Idx) : (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl
theorem feat_apply (v39 : FVec Ideal S4096x128 .f32) (v40 : FVec Ideal S128x64 .f32) (j : Fin 4096) (q : Fin 64) :
    matmul dot_S4096x128_S128x64_S4096x64_1_0_0_1_n_n none v39 v40 (constant S4096x64 .f32 0x00000000#32) (ix2 j q) = ∑ i : Fin 128, v39 (ix2 j i) * v40 (ix2 i q) := by
  refine (Ideal.matmul_constant_zero_apply dot_S4096x128_S128x64_S4096x64_1_0_0_1_n_n none _ _ (ix2 j q)).trans ?_
  rw [← Equiv.sum_comp (ValueIdx.contrEquiv1 dot_S4096x128_S128x64_S4096x64_1_0_0_1_n_n 128 rfl rfl).symm]
  refine Finset.sum_congr rfl fun k _ => ?_
  have hk := ValueIdx.contrEquiv1_symm_val dot_S4096x128_S128x64_S4096x64_1_0_0_1_n_n 128 rfl rfl k
  have el : dot_S4096x128_S128x64_S4096x64_1_0_0_1_n_n.lhsIdx (ix2 j q) ((ValueIdx.contrEquiv1 dot_S4096x128_S128x64_S4096x64_1_0_0_1_n_n 128 rfl rfl).symm k) = ix2 j k := funext fun a => Fin.ext (by
    match a with
    | ⟨0, _⟩ => exact feat_apply_lnon _ _
    | ⟨1, _⟩ => exact (dot_S4096x128_S128x64_S4096x64_1_0_0_1_n_n.lhsIdx_val_of_single rfl _ _).trans hk)
  have er : dot_S4096x128_S128x64_S4096x64_1_0_0_1_n_n.rhsIdx (ix2 j q) ((ValueIdx.contrEquiv1 dot_S4096x128_S128x64_S4096x64_1_0_0_1_n_n 128 rfl rfl).symm k) = ix2 k q := funext fun a => Fin.ext (by
    match a with
    | ⟨0, _⟩ => exact (dot_S4096x128_S128x64_S4096x64_1_0_0_1_n_n.rhsIdx_val_of_single rfl _ _).trans hk
    | ⟨1, _⟩ => exact feat_apply_rnon _ _)
  rw [el, er]

theorem scoreR_apply_lnon (i : S1x4096.Idx) (q : dot_S1x64_S4096x64_S1x4096_1_1_0_0_n_n.contr.Idx) : (dot_S1x64_S4096x64_S1x4096_1_1_0_0_n_n.lhsIdx i q 0).val = (i 0).val := by
  unfold DotDims.lhsIdx
  rw [dif_neg (show ¬(0 : Fin S1x64.rank) ∈ dot_S1x64_S4096x64_S1x4096_1_1_0_0_n_n.lhsBatch by decide), dif_pos (show (0 : Fin S1x64.rank) ∈ dot_S1x64_S4096x64_S1x4096_1_1_0_0_n_n.lhsNonContracting by decide)]
  rfl
theorem scoreR_apply_rnon (i : S1x4096.Idx) (q : dot_S1x64_S4096x64_S1x4096_1_1_0_0_n_n.contr.Idx) : (dot_S1x64_S4096x64_S1x4096_1_1_0_0_n_n.rhsIdx i q 0).val = (i 1).val := by
  unfold DotDims.rhsIdx
  rw [dif_neg (show ¬(0 : Fin S4096x64.rank) ∈ dot_S1x64_S4096x64_S1x4096_1_1_0_0_n_n.rhsBatch by decide), dif_pos (show (0 : Fin S4096x64.rank) ∈ dot_S1x64_S4096x64_S1x4096_1_1_0_0_n_n.rhsNonContracting by decide)]
  rfl
theorem scoreR_apply (v48 : FVec Ideal S1x64 .f32) (x : FVec Ideal S4096x64 .f32) (u : Fin 1) (j : Fin 4096) :
    matmul dot_S1x64_S4096x64_S1x4096_1_1_0_0_n_n none v48 x (constant S1x4096 .f32 0x00000000#32) (ix2 u j) = ∑ i : Fin 64, v48 (ix2 u i) * x (ix2 j i) := by
  refine (Ideal.matmul_constant_zero_apply dot_S1x64_S4096x64_S1x4096_1_1_0_0_n_n none _ _ (ix2 u j)).trans ?_
  rw [← Equiv.sum_comp (ValueIdx.contrEquiv1 dot_S1x64_S4096x64_S1x4096_1_1_0_0_n_n 64 rfl rfl).symm]
  refine Finset.sum_congr rfl fun k _ => ?_
  have hk := ValueIdx.contrEquiv1_symm_val dot_S1x64_S4096x64_S1x4096_1_1_0_0_n_n 64 rfl rfl k
  have el : dot_S1x64_S4096x64_S1x4096_1_1_0_0_n_n.lhsIdx (ix2 u j) ((ValueIdx.contrEquiv1 dot_S1x64_S4096x64_S1x4096_1_1_0_0_n_n 64 rfl rfl).symm k) = ix2 u k := funext fun a => Fin.ext (by
    match a with
    | ⟨0, _⟩ => exact scoreR_apply_lnon _ _
    | ⟨1, _⟩ => exact (dot_S1x64_S4096x64_S1x4096_1_1_0_0_n_n.lhsIdx_val_of_single rfl _ _).trans hk)
  have er : dot_S1x64_S4096x64_S1x4096_1_1_0_0_n_n.rhsIdx (ix2 u j) ((ValueIdx.contrEquiv1 dot_S1x64_S4096x64_S1x4096_1_1_0_0_n_n 64 rfl rfl).symm k) = ix2 j k := funext fun a => Fin.ext (by
    match a with
    | ⟨0, _⟩ => exact scoreR_apply_rnon _ _
    | ⟨1, _⟩ => exact (dot_S1x64_S4096x64_S1x4096_1_1_0_0_n_n.rhsIdx_val_of_single rfl _ _).trans hk)
  rw [el, er]

theorem agg_apply_lnon (i : S512x128.Idx) (q : dot_S512x4096_S4096x128_S512x128_1_0_0_1_n_n.contr.Idx) : (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem agg_apply_rnon (i : S512x128.Idx) (q : dot_S512x4096_S4096x128_S512x128_1_0_0_1_n_n.contr.Idx) : (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl
theorem agg_apply (w : FVec Ideal S512x4096 .f32) (X : FVec Ideal S4096x128 .f32) (p : Fin 512) (l : Fin 128) :
    matmul dot_S512x4096_S4096x128_S512x128_1_0_0_1_n_n none w X (constant S512x128 .f32 0x00000000#32) (ix2 p l) = ∑ j : Fin 4096, w (ix2 p j) * X (ix2 j l) := by
  refine (Ideal.matmul_constant_zero_apply dot_S512x4096_S4096x128_S512x128_1_0_0_1_n_n none _ _ (ix2 p l)).trans ?_
  rw [← Equiv.sum_comp (ValueIdx.contrEquiv1 dot_S512x4096_S4096x128_S512x128_1_0_0_1_n_n 4096 rfl rfl).symm]
  refine Finset.sum_congr rfl fun k _ => ?_
  have hk := ValueIdx.contrEquiv1_symm_val dot_S512x4096_S4096x128_S512x128_1_0_0_1_n_n 4096 rfl rfl k
  have el : dot_S512x4096_S4096x128_S512x128_1_0_0_1_n_n.lhsIdx (ix2 p l) ((ValueIdx.contrEquiv1 dot_S512x4096_S4096x128_S512x128_1_0_0_1_n_n 4096 rfl rfl).symm k) = ix2 p k := funext fun a => Fin.ext (by
    match a with
    | ⟨0, _⟩ => exact agg_apply_lnon _ _
    | ⟨1, _⟩ => exact (dot_S512x4096_S4096x128_S512x128_1_0_0_1_n_n.lhsIdx_val_of_single rfl _ _).trans hk)
  have er : dot_S512x4096_S4096x128_S512x128_1_0_0_1_n_n.rhsIdx (ix2 p l) ((ValueIdx.contrEquiv1 dot_S512x4096_S4096x128_S512x128_1_0_0_1_n_n 4096 rfl rfl).symm k) = ix2 k l := funext fun a => Fin.ext (by
    match a with
    | ⟨0, _⟩ => exact (dot_S512x4096_S4096x128_S512x128_1_0_0_1_n_n.rhsIdx_val_of_single rfl _ _).trans hk
    | ⟨1, _⟩ => exact agg_apply_rnon _ _)
  rw [el, er]

/-! ## The stored payloads at an index -/

open Cert.GatSpec

/-- The slope literal and the floor literal, as the body splats them. -/
abbrev cLit : EReal := Ideal.ofBits .f32 0x3E4CCCCD#32
abbrev epsLit : EReal := Ideal.ofBits .f32 0x2B8CBCCC#32

/-- The projected features: a sum over the input features. -/
theorem pay1_apply (v39 : FVec Ideal S4096x128 .f32) (v40 : FVec Ideal S128x64 .f32) (j : Fin 4096) (q : Fin 64) :
    k0_pay1 (F := Ideal) v39 v40 (ix2 j q) = ∑ i : Fin 128, v39 (ix2 j i) * v40 (ix2 i q) :=
  feat_apply v39 v40 j q

/-- The padded matrix holds the projected features in its first 64 lanes. -/
theorem pay2_apply_lo (v39 : FVec Ideal S4096x128 .f32) (v40 : FVec Ideal S128x64 .f32) (j : Fin 4096) (q : Fin 64) (l : Fin 128)
    (hl : l.val = q.val) : k0_pay2 (F := Ideal) v39 v40 (ix2 j l) = k0_pay1 (F := Ideal) v39 v40 (ix2 j q) := by
  unfold k0_pay2
  rw [shapeCast_self]
  refine concatenate_apply_piece (1 : Fin S4096x128.rank) _ _ (ix2 j l) 0 (by show (0 : ℕ) < 3; omega) S4096x64 (k0_pay1 (F := Ideal) v39 v40) rfl rfl 0 rfl (ix2 j q) ?_ ?_
  · intro b hb
    match b with
    | ⟨0, _⟩ => rfl
    | ⟨1, _⟩ => exact absurd rfl hb
  · show 0 + q.val = l.val
    omega

/-- … and ones in lane 64. -/
theorem pay2_apply_one (v39 : FVec Ideal S4096x128 .f32) (v40 : FVec Ideal S128x64 .f32) (j : Fin 4096) (l : Fin 128)
    (hl : l.val = 64) : k0_pay2 (F := Ideal) v39 v40 (ix2 j l) = 1 := by
  unfold k0_pay2
  rw [shapeCast_self]
  refine (concatenate_apply_piece (1 : Fin S4096x128.rank) _ _ (ix2 j l) 1 (by show (1 : ℕ) < 3; omega) S4096x1
    (broadcast S4096x1 (Scalar.ofBits (F := Ideal) .f32 0x3F800000#32)) rfl rfl 64 rfl (ix2 j (0 : Fin 1)) ?_ ?_).trans ?_
  · intro b hb
    match b with
    | ⟨0, _⟩ => rfl
    | ⟨1, _⟩ => exact absurd rfl hb
  · show 64 + 0 = l.val
    omega
  · show Ideal.ofBits .f32 0x3F800000#32 = 1
    exact Ideal.ofBits_one_f32

/-- The right scores: a sum over the projected features. -/
theorem pay3_apply (v39 : FVec Ideal S4096x128 .f32) (v40 : FVec Ideal S128x64 .f32) (v48 : FVec Ideal S1x64 .f32) (u : Fin 1) (j : Fin 4096) :
    k0_pay3 (F := Ideal) v39 v40 v48 (ix2 u j) = ∑ i : Fin 64, v48 (ix2 u i) * k0_pay1 (F := Ideal) v39 v40 (ix2 j i) :=
  scoreR_apply v48 (k0_pay1 (F := Ideal) v39 v40) u j

theorem pay4_apply (v39 : FVec Ideal S4096x128 .f32) (v40 : FVec Ideal S128x64 .f32) (v48 : FVec Ideal S1x64 .f32) (u : Fin 1) (j : Fin 4096) :
    k0_pay4 (F := Ideal) v39 v40 v48 (ix2 u j) = Ideal.exp (k0_pay3 (F := Ideal) v39 v40 v48 (ix2 u j)) := by
  unfold k0_pay4
  rw [shapeCast_self]
  rfl

theorem pay5_apply (v39 : FVec Ideal S4096x128 .f32) (v40 : FVec Ideal S128x64 .f32) (v48 : FVec Ideal S1x64 .f32) (u : Fin 1) (j : Fin 4096) :
    k0_pay5 (F := Ideal) v39 v40 v48 (ix2 u j) = Ideal.exp (cLit * k0_pay3 (F := Ideal) v39 v40 v48 (ix2 u j)) := by
  unfold k0_pay5
  rw [shapeCast_self]
  rfl

/-- The left scores of a block, one per row, as a column. -/
def scoreL (v5 : FVec Ideal S512x64 .f32) (v6 : FVec Ideal S1x64 .f32) : FVec Ideal S512x1 .f32 :=
  shapeCast S512x1 (multiReduction .add [1] S512 (mulf v5 (broadcastTo S512x64 v6 broadcasts_S1x64_S512x64)) 0x00000000#32 reduces_S512x64_S512 (.inl rfl) rfl) shapeCasts_S512_S512x1

theorem scoreL_apply (v5 : FVec Ideal S512x64 .f32) (v6 : FVec Ideal S1x64 .f32) (p : Fin 512) :
    scoreL v5 v6 (ix2 p (0 : Fin 1)) = ∑ k : Fin 64, v5 (ix2 p k) * v6 (ix2 (0 : Fin 1) k) := by
  unfold scoreL
  refine (shapeCast_a_a1_apply _ shapeCasts_S512_S512x1 p (0 : Fin 1)).trans ?_
  refine (laneSum_apply _ _ reduces_S512x64_S512 (.inl rfl) rfl p).trans ?_
  refine Finset.sum_congr rfl fun k _ => ?_
  show v5 (ix2 p k) * broadcastTo S512x64 v6 broadcasts_S1x64_S512x64 (ix2 p k) = _
  rw [broadcastTo_1b_ab_apply]

/-- The masked attention weights of a block. -/
def weights (v5 : FVec Ideal S512x64 .f32) (v6 : FVec Ideal S1x64 .f32) (v15 v19 : FVec Ideal S1x4096 .f32) (v24 : FVec Ideal S512x4096 .f32) :
    FVec Ideal S512x4096 .f32 :=
  mulf (maximumf (mulf (broadcastTo S512x4096 (exp (scoreL v5 v6)) broadcasts_S512x1_S512x4096) (broadcastTo S512x4096 v15 broadcasts_S1x4096_S512x4096))
      (mulf (broadcastTo S512x4096 (exp (mulf (broadcast S512x1 (Scalar.ofBits (F := Ideal) .f32 0x3E4CCCCD#32)) (scoreL v5 v6))) broadcasts_S512x1_S512x4096)
        (broadcastTo S512x4096 v19 broadcasts_S1x4096_S512x4096))) v24

theorem weights_apply (v5 : FVec Ideal S512x64 .f32) (v6 : FVec Ideal S1x64 .f32) (v15 v19 : FVec Ideal S1x4096 .f32) (v24 : FVec Ideal S512x4096 .f32)
    (er : Fin 4096 → EReal) (h15 : ∀ j, v15 (ix2 (0 : Fin 1) j) = Ideal.exp (er j)) (h19 : ∀ j, v19 (ix2 (0 : Fin 1) j) = Ideal.exp (cLit * er j))
    (p : Fin 512) (j : Fin 4096) :
    weights v5 v6 v15 v19 v24 (ix2 p j)
      = kerW cLit (∑ k : Fin 64, v5 (ix2 p k) * v6 (ix2 (0 : Fin 1) k)) (er j) (v24 (ix2 p j)) := by
  show max (broadcastTo S512x4096 (exp (scoreL v5 v6)) broadcasts_S512x1_S512x4096 (ix2 p j) * broadcastTo S512x4096 v15 broadcasts_S1x4096_S512x4096 (ix2 p j))
      (broadcastTo S512x4096 (exp (mulf (broadcast S512x1 (Scalar.ofBits (F := Ideal) .f32 0x3E4CCCCD#32)) (scoreL v5 v6))) broadcasts_S512x1_S512x4096 (ix2 p j)
        * broadcastTo S512x4096 v19 broadcasts_S1x4096_S512x4096 (ix2 p j)) * v24 (ix2 p j) = _
  rw [broadcastTo_a1_ab_apply, broadcastTo_1b_ab_apply, broadcastTo_a1_ab_apply, broadcastTo_1b_ab_apply, h15, h19]
  show max (Ideal.exp (scoreL v5 v6 (ix2 p (0 : Fin 1))) * _) (Ideal.exp (cLit * scoreL v5 v6 (ix2 p (0 : Fin 1))) * _) * _ = _
  rw [scoreL_apply]
  rfl

/-- The weighted sums of a block against the padded features. -/
def aggregate (v5 : FVec Ideal S512x64 .f32) (v6 : FVec Ideal S1x64 .f32) (v15 v19 : FVec Ideal S1x4096 .f32) (v24 : FVec Ideal S512x4096 .f32)
    (v26 : FVec Ideal S4096x128 .f32) : FVec Ideal S512x128 .f32 :=
  matmul dot_S512x4096_S4096x128_S512x128_1_0_0_1_n_n none (weights v5 v6 v15 v19 v24) v26 (constant S512x128 .f32 0x00000000#32)

theorem pay6_unfold (v5 : FVec Ideal S512x64 .f32) (v6 : FVec Ideal S1x64 .f32) (v15 v19 : FVec Ideal S1x4096 .f32)
    (v24 : FVec Ideal S512x4096 .f32) (v26 : FVec Ideal S4096x128 .f32) (v34 : FVec Ideal S1x64 .f32) :
    k0_pay6 (F := Ideal) v5 v6 v15 v19 v24 v26 v34
      = addf (divf (extractStridedSlice S512x64 ![0, 0] (aggregate v5 v6 v15 v19 v24 v26) slices_S512x128_o0_0_S512x64)
          (broadcastTo S512x64 (maximumf (extractStridedSlice S512x1 ![0, 64] (aggregate v5 v6 v15 v19 v24 v26) slices_S512x128_o0_64_S512x1)
            (broadcast S512x1 (Scalar.ofBits (F := Ideal) .f32 0x2B8CBCCC#32))) broadcasts_S512x1_S512x64))
        (broadcastTo S512x64 (shapeCast S1x64 v34 shapeCasts_S1x64_S1x64) broadcasts_S1x64_S512x64) := rfl

/-- The output payload at `(p, q)`: the kernel's row formula of the left score of row `p`, the right scores
    behind the two rows of exponentials, row `p` of the adjacency block and lane `q` of the padded features,
    plus the bias. -/
theorem pay6_apply (v5 : FVec Ideal S512x64 .f32) (v6 : FVec Ideal S1x64 .f32) (v15 v19 : FVec Ideal S1x4096 .f32)
    (v24 : FVec Ideal S512x4096 .f32) (v26 : FVec Ideal S4096x128 .f32) (v34 : FVec Ideal S1x64 .f32)
    (p : Fin 512) (q : Fin 64) (er : Fin 4096 → EReal) (xq : Fin 4096 → EReal)
    (h15 : ∀ j, v15 (ix2 (0 : Fin 1) j) = Ideal.exp (er j)) (h19 : ∀ j, v19 (ix2 (0 : Fin 1) j) = Ideal.exp (cLit * er j))
    (hq : ∀ j, v26 (ix2 j (⟨q.val, by omega⟩ : Fin 128)) = xq j) (hone : ∀ j, v26 (ix2 j (⟨64, by omega⟩ : Fin 128)) = 1) :
    k0_pay6 (F := Ideal) v5 v6 v15 v19 v24 v26 v34 (ix2 p q)
      = kerRow cLit epsLit (∑ k : Fin 64, v5 (ix2 p k) * v6 (ix2 (0 : Fin 1) k)) er (fun j => v24 (ix2 p j)) xq
        + v34 (ix2 (0 : Fin 1) q) := by
  rw [pay6_unfold]
  show Ideal.div (extractStridedSlice S512x64 ![0, 0] (aggregate v5 v6 v15 v19 v24 v26) slices_S512x128_o0_0_S512x64 (ix2 p q))
      (broadcastTo S512x64 (maximumf (extractStridedSlice S512x1 ![0, 64] (aggregate v5 v6 v15 v19 v24 v26) slices_S512x128_o0_64_S512x1)
            (broadcast S512x1 (Scalar.ofBits (F := Ideal) .f32 0x2B8CBCCC#32))) broadcasts_S512x1_S512x64 (ix2 p q))
    + broadcastTo S512x64 (shapeCast S1x64 v34 shapeCasts_S1x64_S1x64) broadcasts_S1x64_S512x64 (ix2 p q) = _
  rw [slice2_axis1_apply 0 (aggregate v5 v6 v15 v19 v24 v26) slices_S512x128_o0_0_S512x64 p q (⟨q.val, by omega⟩ : Fin 128) (by simp),
    broadcastTo_a1_ab_apply, broadcastTo_1b_ab_apply, shapeCast_self]
  show Ideal.div _ (max (extractStridedSlice S512x1 ![0, 64] (aggregate v5 v6 v15 v19 v24 v26) slices_S512x128_o0_64_S512x1 (ix2 p (0 : Fin 1))) epsLit) + _ = _
  rw [slice2_axis1_apply 64 (aggregate v5 v6 v15 v19 v24 v26) slices_S512x128_o0_64_S512x1 p (0 : Fin 1) (⟨64, by omega⟩ : Fin 128) rfl]
  unfold aggregate
  rw [agg_apply, agg_apply]
  unfold kerRow
  simp only [weights_apply v5 v6 v15 v19 v24 er h15 h19, hq, hone]

end Cert.KernelIdeal.PayIdx

end
-- ==== Proof.BlockValue.lean ====
/-
  One output block, index by index, in terms of the whole argument arrays.
  Grid point `t` owns rows 512·t … 512·t + 511. Its left scores come from those rows of the projected features,
  its adjacency block is those rows of the adjacency matrix, and everything else it reads is a whole array:
  the padded features (projected features in lanes 0…63, ones in lane 64), the exponentials of the right scores,
  the left attention row and the bias (a vector cast to one row before the launch).
-/
import proofs.«105371_g26414048870624_cont_sun_m_177_26_alg».proof.Proof.Carried
import proofs.«105371_g26414048870624_cont_sun_m_177_26_alg».proof.Proof.PayIdx
import Idealize.ShloMosaic.Lib.StableHlo.Run

set_option maxRecDepth 16384

noncomputable section

namespace Cert.KernelIdeal.BlockValue

open Cert.KernelIdeal Cert.KernelIdeal.Gen Cert.KernelIdeal.Pieces Cert.KernelIdeal.Carried Cert.KernelIdeal.PayIdx Cert.GatSpec
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The row offset of the body's slice of the padded features, decided over the grid: 512 rows per point. -/
theorem off_facts : ∀ t : Fin cfg0.N, k0_off1 (grid0.coords t) (0 : Fin 2) = 512 * t.val ∧ k0_off1 (grid0.coords t) (1 : Fin 2) = 0 :=
  (by decide +kernel : ∀ t : Fin grid0.N, _)

/-- The slice of a point's rows, read at `(p, k)`: row 512·t + p, lane k of the padded features. -/
theorem rowsOf_apply (t : Fin cfg0.N) (X : Vec Ideal S4096x128 .f32) (p : Fin 512) (k : Fin 64) (r : Fin 4096) (l : Fin 128)
    (hr : r.val = 512 * t.val + p.val) (hl : l.val = k.val) :
    rowsOf (F := Ideal) (grid0.coords t) X (ix2 p k) = X (ix2 r l) := by
  obtain ⟨e0, e1⟩ := off_facts t
  show X ((Rect.unit (s := S4096x128) (k0_off1 (grid0.coords t)) S512x64.size (k0_off1_inb (grid0.coords t))).emb (ix2 p k)) = X (ix2 r l)
  refine congrArg X (funext fun a => Fin.ext ?_)
  match a with
  | ⟨0, _⟩ => show k0_off1 (grid0.coords t) (0 : Fin 2) + 1 * p.val = r.val; omega
  | ⟨1, _⟩ => show k0_off1 (grid0.coords t) (1 : Fin 2) + 1 * k.val = l.val; omega

/-- A point's adjacency block, read at `(p, j)`: row 512·t + p of the adjacency matrix. -/
theorem adjBlock_apply (c : Dev nD) (t : Fin cfg0.N) (p : Fin 512) (j : Fin 4096) (r : Fin 4096) (hr : r.val = 512 * t.val + p.val) :
    iblk m c 4 t (ix2 p j) = V m c main_arg1 (ix2 r j) := by
  have e0 := (idx_facts t).2.2.2.2.2.2.2.2.1
  have e1 := (idx_facts t).2.2.2.2.2.2.2.2.2.1
  show V m c main_arg1 (((cfg0.win 4).blk t).view.emb (ix2 p j)) = V m c main_arg1 (ix2 r j)
  refine congrArg _ (funext fun a => Fin.ext ?_)
  match a with
  | ⟨0, _⟩ => show win0_4.index t (0 : Fin 2) * 512 + 1 * p.val = r.val; omega
  | ⟨1, _⟩ => show win0_4.index t (1 : Fin 2) * 4096 + 1 * j.val = j.val; omega

/-- The bias row the region finds is the bias vector cast to one row. -/
theorem biasRow_eq (c : Dev nD) :
    (V m c main_call0_v0 : S1x64.Idx → EReal) = shapeCast S1x64 (m ((c : Thread nD τ).loc main_arg5)) shapeCasts_S64_S1x64 := by
  dsimp only [Gen.V, Gen.hostOps0]
  after_results
  rfl

theorem biasRow_apply (c : Dev nD) (q : Fin 64) :
    V m c main_call0_v0 (ix2 (0 : Fin 1) q) = m ((c : Thread nD τ).loc main_arg5) (ix1 q) := by
  have e := congrFun (biasRow_eq m c) (ix2 (0 : Fin 1) q)
  exact e.trans (shapeCast_a_1a_apply _ shapeCasts_S64_S1x64 (0 : Fin 1) q)

/-- The block of point `t` at `(p, q)`, for ANY arrays: the kernel's row formula for row r = 512·t + p — the left
    score of row r, the right scores of all nodes, row p of the adjacency block, column q of the projected
    features — plus the bias row. -/
theorem blockOf_apply (t : Fin cfg0.N) (H : FVec Ideal S4096x128 .f32) (W : FVec Ideal S128x64 .f32) (AL AR : FVec Ideal S1x64 .f32)
    (adjblk : FVec Ideal S512x4096 .f32) (B1 : FVec Ideal S1x64 .f32)
    (p : Fin 512) (q : Fin 64) (r : Fin 4096) (hr : r.val = 512 * t.val + p.val) :
    blockOf (F := Ideal) (grid0.coords t) (k0_pay2 (F := Ideal) H W) AL (k0_pay4 (F := Ideal) H W AR) (k0_pay5 (F := Ideal) H W AR) adjblk B1 (ix2 p q)
      = kerRow cLit epsLit (∑ k : Fin 64, k0_pay1 (F := Ideal) H W (ix2 r k) * AL (ix2 (0 : Fin 1) k))
          (fun j : Fin 4096 => ∑ i : Fin 64, AR (ix2 (0 : Fin 1) i) * k0_pay1 (F := Ideal) H W (ix2 j i))
          (fun j : Fin 4096 => adjblk (ix2 p j))
          (fun j : Fin 4096 => k0_pay1 (F := Ideal) H W (ix2 j q))
        + B1 (ix2 (0 : Fin 1) q) := by
  unfold blockOf
  refine (pay6_apply (rowsOf (F := Ideal) (grid0.coords t) (k0_pay2 (F := Ideal) H W)) AL (k0_pay4 (F := Ideal) H W AR) (k0_pay5 (F := Ideal) H W AR) adjblk
    (k0_pay2 (F := Ideal) H W) B1 p q
    (fun j : Fin 4096 => k0_pay3 (F := Ideal) H W AR (ix2 (0 : Fin 1) j))
    (fun j : Fin 4096 => k0_pay1 (F := Ideal) H W (ix2 j q))
    (fun j => pay4_apply H W AR (0 : Fin 1) j) (fun j => pay5_apply H W AR (0 : Fin 1) j)
    (fun j => pay2_apply_lo H W j q _ rfl) (fun j => pay2_apply_one H W j _ rfl)).trans ?_
  have e1 : (∑ k : Fin 64, rowsOf (F := Ideal) (grid0.coords t) (k0_pay2 (F := Ideal) H W) (ix2 p k) * AL (ix2 (0 : Fin 1) k))
      = ∑ k : Fin 64, k0_pay1 (F := Ideal) H W (ix2 r k) * AL (ix2 (0 : Fin 1) k) :=
    Finset.sum_congr rfl fun k _ => by
      rw [rowsOf_apply t _ p k r (⟨k.val, by omega⟩ : Fin 128) hr rfl, pay2_apply_lo H W r k _ rfl]
  have e2 : (fun j : Fin 4096 => k0_pay3 (F := Ideal) H W AR (ix2 (0 : Fin 1) j))
      = (fun j : Fin 4096 => ∑ i : Fin 64, AR (ix2 (0 : Fin 1) i) * k0_pay1 (F := Ideal) H W (ix2 j i)) :=
    funext fun j => pay3_apply H W AR (0 : Fin 1) j
  rw [e1, e2]

/-- The argument arrays as the region finds them, at their literal shapes. -/
abbrev aH (c : Dev nD) : FVec Ideal S4096x128 .f32 := fun y => V m c main_arg0 y
abbrev aA (c : Dev nD) : FVec Ideal S4096x4096 .f32 := fun y => V m c main_arg1 y
abbrev aW (c : Dev nD) : FVec Ideal S128x64 .f32 := fun y => V m c main_arg2 y
abbrev aAL (c : Dev nD) : FVec Ideal S1x64 .f32 := fun y => V m c main_arg3 y
abbrev aAR (c : Dev nD) : FVec Ideal S1x64 .f32 := fun y => V m c main_arg4 y
abbrev aB (c : Dev nD) : FVec Ideal S64 .f32 := fun y => m ((c : Thread nD τ).loc main_arg5) y

/-- The projected features of the whole arrays. -/
def proj (c : Dev nD) (j : Fin 4096) (k : Fin 64) : EReal := k0_pay1 (F := Ideal) (aH m c) (aW m c) (ix2 j k)

theorem proj_eq (c : Dev nD) (j : Fin 4096) (k : Fin 64) :
    proj m c j k = ∑ i : Fin 128, aH m c (ix2 j i) * aW m c (ix2 i k) :=
  pay1_apply _ _ j k

/-- WHAT POINT `t` LEAVES at `(p, q)` of its output block, in terms of the whole arrays. -/
theorem block_apply (c : Dev nD) (t : Fin cfg0.N) (p : Fin 512) (q : Fin 64) (r : Fin 4096) (hr : r.val = 512 * t.val + p.val) :
    (outsAt0 m c t.val t.isLt).1 (ix2 p q)
      = kerRow cLit epsLit (∑ k : Fin 64, proj m c r k * aAL m c (ix2 (0 : Fin 1) k))
          (fun j : Fin 4096 => ∑ i : Fin 64, aAR m c (ix2 (0 : Fin 1) i) * proj m c j i)
          (fun j : Fin 4096 => aA m c (ix2 r j))
          (fun j : Fin 4096 => proj m c j q)
        + aB m c (ix1 q) := by
  refine (congrFun (out_eq m c t) (ix2 p q)).trans ?_
  refine (blockOf_apply t (aH m c) (aW m c) (aAL m c) (aAR m c) (iblk m c 4 t) (fun y : S1x64.Idx => V m c main_call0_v0 y) p q r hr).trans ?_
  have hadj : (fun j : Fin 4096 => iblk m c 4 t (ix2 p j)) = (fun j : Fin 4096 => aA m c (ix2 r j)) :=
    funext fun j => adjBlock_apply m c t p j r hr
  have hb : V m c main_call0_v0 (ix2 (0 : Fin 1) q) = aB m c (ix1 q) := biasRow_apply m c q
  show kerRow cLit epsLit _ _ (fun j : Fin 4096 => iblk m c 4 t (ix2 p j)) _ + V m c main_call0_v0 (ix2 (0 : Fin 1) q) = _
  rw [hadj, hb]
  rfl

end Cert.KernelIdeal.BlockValue

end
-- ==== Proof.RowLaw.lean ====
/-
  The two spellings of one output row agree on real inputs.
  With t = el + er j and a slope c at most 1, the exponential of the leaky rectifier of t is the larger of
  exp t and exp (c t) (for t not negative c t is at most t, for t negative it is at least t), and exp splits over
  the sum: exp el * exp (er j) and exp (c el) * exp (c (er j)). An adjacency entry that is 0 or 1 makes "take the
  weight where the entry is not zero, else 0" the product with the entry. Each weight is a real number that is not
  negative, so it is its own absolute value, and the floored mass d = max (sum of the weights) eps is a real number
  at least eps, hence positive; division by it is multiplication by the real 1/d, and over the reals
  sum_j (w j * (1/d)) * x j = (sum_j w j * x j) * (1/d).
  Beside that: a finite sum of products of reals is a real; the two float literals (the slope and the floor) are
  reals, the first in [0, 1], the second positive.
-/
import proofs.«105371_g26414048870624_cont_sun_m_177_26_alg».proof.Proof.Spec

noncomputable section

namespace Cert.GatSpec

open Idealize.ShloMosaic
open scoped BigOperators

/-! ## Real numbers inside the extended reals -/

/-- The inclusion of the reals commutes with finite sums. -/
theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The inclusion of the reals is monotone, so it commutes with the maximum of two. -/
theorem coe_max (x y : ℝ) : ((max x y : ℝ) : EReal) = max (x : EReal) (y : EReal) :=
  EReal.coe_strictMono.monotone.map_max

/-- A finite sum of products of real numbers is a real number. -/
theorem exists_real_sum_mul {n : ℕ} (a b : Fin n → EReal) (ha : ∀ k, ∃ r : ℝ, a k = r)
    (hb : ∀ k, ∃ r : ℝ, b k = r) : ∃ r : ℝ, ∑ k, a k * b k = (r : EReal) := by
  choose ra hra using ha
  choose rb hrb using hb
  refine ⟨∑ k, ra k * rb k, ?_⟩
  rw [coe_sum]
  exact Finset.sum_congr rfl fun k _ => by rw [hra, hrb, EReal.coe_mul]

/-! ## The two float literals -/

/-- The slope literal (the f32 nearest 0.2) is the real 13421773 / 2^26, between 0 and 1. -/
theorem lit_slope : ∃ c : ℝ, Ideal.ofBits .f32 0x3E4CCCCD#32 = (c : EReal) ∧ 0 ≤ c ∧ c ≤ 1 := by
  refine ⟨(13421773 : ℝ) / 2 ^ 26, ?_, by positivity, by norm_num⟩
  simp [Ideal.ofBits, Ideal.ieee, -EReal.coe_mul]; norm_num

/-- The floor literal (the f32 nearest 1e-12) is the real 9223372 / 2^63, positive. -/
theorem lit_floor : ∃ ε : ℝ, Ideal.ofBits .f32 0x2B8CBCCC#32 = (ε : EReal) ∧ 0 < ε := by
  refine ⟨(9223372 : ℝ) / 2 ^ 63, ?_, by positivity⟩
  simp [Ideal.ofBits, Ideal.ieee, -EReal.coe_mul]; norm_num

/-! ## The comparisons and selects on real arguments -/

/-- A choice on "t is at least 0", at a real t. -/
theorem select_oge_coe (t : ℝ) (x y : EReal) :
    Scalar.select (Ideal.cmp .oge (t : EReal) 0) x y = if 0 ≤ t then x else y := by
  unfold Scalar.select Ideal.cmp
  by_cases h : 0 ≤ t
  · have h' : (0 : EReal) ≤ (t : EReal) := EReal.coe_nonneg.2 h
    simp [h, h']
  · have h' : ¬ (0 : EReal) ≤ (t : EReal) := fun k => h (EReal.coe_nonneg.1 k)
    simp [h, h']

/-- A choice on "a is not 0", at a real a. -/
theorem select_une_coe (a : ℝ) (x y : EReal) :
    Scalar.select (Ideal.cmp .une (a : EReal) 0) x y = if a ≠ 0 then x else y := by
  unfold Scalar.select Ideal.cmp
  by_cases h : a = 0
  · have h' : (a : EReal) = 0 := EReal.coe_eq_zero.2 h
    simp [h, h']
  · have h' : (a : EReal) ≠ 0 := EReal.coe_ne_zero.2 h
    simp [h, h']

/-- The leaky rectifier of a real, with a real slope, is the real one. -/
theorem leaky_coe (c t : ℝ) : leaky (c : EReal) (t : EReal) = ((if 0 ≤ t then t else c * t : ℝ) : EReal) := by
  unfold leaky
  rw [select_oge_coe]
  split_ifs
  · rfl
  · rw [EReal.coe_mul]

/-- For a slope at most 1 the exponential of the leaky rectifier is the larger of exp t and exp (c t). -/
theorem exp_leaky (c t : ℝ) (hc1 : c ≤ 1) :
    Real.exp (if 0 ≤ t then t else c * t) = max (Real.exp t) (Real.exp (c * t)) := by
  split_ifs with h
  · rw [max_eq_left]
    exact Real.exp_le_exp.2 (by nlinarith [mul_nonneg (sub_nonneg.2 hc1) h])
  · rw [max_eq_right]
    exact Real.exp_le_exp.2 (by nlinarith [mul_nonneg (sub_nonneg.2 hc1) (le_of_lt (neg_pos.2 (not_le.1 h)))])

/-! ## One masked weight, as a real number -/

/-- The masked weight over the reals: the larger of the two products of exponentials, times the adjacency entry. -/
def wR (c el er adj : ℝ) : ℝ :=
  max (Real.exp el * Real.exp er) (Real.exp (c * el) * Real.exp (c * er)) * adj

/-- At an adjacency entry 0 or 1 the weight is not negative. -/
theorem wR_nonneg (c el er adj : ℝ) (hadj : adj = 0 ∨ adj = 1) : 0 ≤ wR c el er adj := by
  unfold wR
  refine mul_nonneg (le_max_of_le_left (by positivity)) ?_
  rcases hadj with h | h <;> simp [h]

/-- The second spelling of the weight, on reals, is that real number. -/
theorem kerW_coe (c el er adj : ℝ) :
    kerW (c : EReal) (el : EReal) (er : EReal) (adj : EReal) = ((wR c el er adj : ℝ) : EReal) := by
  unfold kerW wR
  simp only [Ideal.exp_coe, ← EReal.coe_mul, ← coe_max]

/-- The first spelling of the weight, on reals with a slope at most 1 and an entry 0 or 1, is the same real. -/
theorem refW_coe (c el er adj : ℝ) (hc1 : c ≤ 1) (hadj : adj = 0 ∨ adj = 1) :
    refW (c : EReal) (el : EReal) (er : EReal) (adj : EReal) = ((wR c el er adj : ℝ) : EReal) := by
  unfold refW
  rw [select_une_coe, ← EReal.coe_add, leaky_coe, Ideal.exp_coe, exp_leaky _ _ hc1]
  rcases hadj with h | h
  · simp [h, wR]
  · simp [h, wR, Real.exp_add, mul_add]

/-! ## The row -/

/-- On real inputs, with a slope in [0, 1], a positive floor and adjacency entries 0 or 1, dividing the weighted
    sum once by the floored sum of the weights equals normalising every weight by the floored L1 mass first. -/
theorem row_law {n : ℕ} (c ε el : ℝ) (er adj xk : Fin n → ℝ) (hc0 : 0 ≤ c) (hc1 : c ≤ 1) (hε : 0 < ε)
    (hadj : ∀ j, adj j = 0 ∨ adj j = 1) :
    kerRow (c : EReal) (ε : EReal) (el : EReal) (fun j => (er j : EReal)) (fun j => (adj j : EReal))
        (fun j => (xk j : EReal))
      = refRow (c : EReal) (ε : EReal) (el : EReal) (fun j => (er j : EReal)) (fun j => (adj j : EReal))
        (fun j => (xk j : EReal)) := by
  have hK : ∀ j, kerW (c : EReal) (el : EReal) (er j : EReal) (adj j : EReal)
      = ((wR c el (er j) (adj j) : ℝ) : EReal) := fun j => kerW_coe _ _ _ _
  have hR : ∀ j, refW (c : EReal) (el : EReal) (er j : EReal) (adj j : EReal)
      = ((wR c el (er j) (adj j) : ℝ) : EReal) := fun j => refW_coe _ _ _ _ hc1 (hadj j)
  have hw0 : ∀ j, 0 ≤ wR c el (er j) (adj j) := fun j => wR_nonneg _ _ _ _ (hadj j)
  have habs : ∀ j, max ((wR c el (er j) (adj j) : ℝ) : EReal) (-((wR c el (er j) (adj j) : ℝ) : EReal))
      = ((wR c el (er j) (adj j) : ℝ) : EReal) := fun j => by
    rw [← EReal.coe_neg, ← coe_max, max_eq_left (by linarith [hw0 j])]
  have hd : max (∑ j, wR c el (er j) (adj j)) ε ≠ 0 := (lt_of_lt_of_le hε (le_max_right _ _)).ne'
  have hker : kerRow (c : EReal) (ε : EReal) (el : EReal) (fun j => (er j : EReal)) (fun j => (adj j : EReal))
        (fun j => (xk j : EReal))
      = (((∑ j, wR c el (er j) (adj j) * xk j) * (1 / max (∑ j, wR c el (er j) (adj j)) ε) : ℝ) : EReal) := by
    unfold kerRow
    simp only [hK, mul_one, ← EReal.coe_mul, ← coe_sum, ← coe_max]
    rw [Ideal.div_coe hd, ← EReal.coe_mul]
  have href : refRow (c : EReal) (ε : EReal) (el : EReal) (fun j => (er j : EReal)) (fun j => (adj j : EReal))
        (fun j => (xk j : EReal))
      = (((∑ j, wR c el (er j) (adj j) * xk j) * (1 / max (∑ j, wR c el (er j) (adj j)) ε) : ℝ) : EReal) := by
    unfold refRow
    simp only [hR, habs, zero_add, ← coe_sum, ← coe_max]
    simp only [Ideal.div_coe hd, ← EReal.coe_mul, ← coe_sum]
    rw [Finset.sum_mul]
    exact congrArg _ (Finset.sum_congr rfl fun j _ => by ring)
  rw [hker, href]

end Cert.GatSpec

end
-- ==== Proof.RefIdx.lean ====
/-
  The reference program read at one output entry (r, q), as the row formula of the specification.
  The program forms the features X = x0 · x2 (a product of matrices), the left scores X · x3ᵀ and the right
  scores X · x4ᵀ, adds the left score of row r to the right score of column j, applies the leaky rectifier
  with the slope literal, exponentiates, keeps the result where the adjacency entry is not zero and puts 0
  elsewhere, sums the absolute values along the row from 0, floors the sum with the floor literal, divides
  every weight of the row by that, multiplies by the features and adds the bias of column q. Each operation
  reads its operands at the index it names; identifying those indices with (row, column) pairs, entry (r, q)
  is the specification's row at left score el r, right scores er j, adjacency entries x1 (r, j) and feature
  column X (j, q), plus x5 q.
-/
import proofs.«105371_g26414048870624_cont_sun_m_177_26_alg».proof.Proof.Gen.ReferenceIdeal.Read
import proofs.«105371_g26414048870624_cont_sun_m_177_26_alg».proof.Proof.Spec
import Idealize.ShloMosaic.Lib.ValueIdx
import Idealize.ShloMosaic.PureOps.Ideal.Laws

noncomputable section

namespace Cert.RefIdx

open Cert.ReferenceIdeal Cert.ReferenceIdeal.Read Cert.GatSpec Idealize.ShloMosaic Idealize.ShloMosaic.ValueIdx

/-- A rank-2 index with coordinates a and b is the pair (a, b). -/
theorem idx2_ext {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-1 index with coordinate a is a. -/
theorem idx1_ext {n : Nat} (f : (⟨1, ![n]⟩ : Shape).Idx) (a : Fin n) (h : (f 0).val = a.val) : f = ix1 a :=
  funext fun d => Fin.ext (by match d with | ⟨0, _⟩ => exact h)

variable (x0 : (⟨S4096x128, .f32⟩ : BufTy).Contents (Elt Ideal))
  (x1 : (⟨S4096x4096, .f32⟩ : BufTy).Contents (Elt Ideal))
  (x2 : (⟨S128x64, .f32⟩ : BufTy).Contents (Elt Ideal))
  (x3 x4 : (⟨S1x64, .f32⟩ : BufTy).Contents (Elt Ideal))
  (x5 : (⟨S64, .f32⟩ : BufTy).Contents (Elt Ideal))

/-- The features: entry (j, k) of the product x0 · x2. -/
theorem feat_apply (j : Fin 4096) (k : Fin 64) :
    val_main_v0 (F := Ideal) x0 x2 (ix2 j k) = ∑ i : Fin 128, x0 (ix2 j i) * x2 (ix2 i k) := by
  rw [val_main_v0_apply]
  refine Finset.sum_congr rfl fun i _ => ?_
  rw [idx2_ext (lidx_main_v0 (ix2 j k) i) j i rfl rfl, idx2_ext (ridx_main_v0 (ix2 j k) i) i k rfl rfl]

/-- The left score of row r: the features of row r against x3. -/
theorem el_apply (r : Fin 4096) :
    val_main_v2 (F := Ideal) x0 x2 x3 (ix2 r (0 : Fin 1)) = (∑ k : Fin 64, val_main_v0 (F := Ideal) x0 x2 (ix2 r k) * x3 (ix2 (0 : Fin 1) k)) := by
  rw [val_main_v2_apply]
  refine Finset.sum_congr rfl fun k _ => ?_
  rw [val_main_v1_apply, idx2_ext (lidx_main_v2 (ix2 r (0 : Fin 1)) k) r k rfl rfl,
    idx2_ext (idx_main_v1 (ridx_main_v2 (ix2 r (0 : Fin 1)) k)) (0 : Fin 1) k rfl rfl]

/-- The right score of row j: the features of row j against x4. -/
theorem er_apply (j : Fin 4096) :
    val_main_v4 (F := Ideal) x0 x2 x4 (ix2 j (0 : Fin 1)) = (∑ k : Fin 64, val_main_v0 (F := Ideal) x0 x2 (ix2 j k) * x4 (ix2 (0 : Fin 1) k)) := by
  rw [val_main_v4_apply]
  refine Finset.sum_congr rfl fun k _ => ?_
  rw [val_main_v3_apply, idx2_ext (lidx_main_v4 (ix2 j (0 : Fin 1)) k) j k rfl rfl,
    idx2_ext (idx_main_v3 (ridx_main_v4 (ix2 j (0 : Fin 1)) k)) (0 : Fin 1) k rfl rfl]

/-- The score at (r, j): the left score of r plus the right score of j. -/
theorem score_apply (r j : Fin 4096) :
    val_main_v8 (F := Ideal) x0 x2 x3 x4 (ix2 r j) = (∑ k : Fin 64, val_main_v0 (F := Ideal) x0 x2 (ix2 r k) * x3 (ix2 (0 : Fin 1) k)) + (∑ k : Fin 64, val_main_v0 (F := Ideal) x0 x2 (ix2 j k) * x4 (ix2 (0 : Fin 1) k)) := by
  rw [val_main_v8_apply, val_main_v6_apply, val_main_v7_apply, val_main_v5_apply, Ideal.addf_def,
    idx2_ext (idx_main_v6 (ix2 r j)) r (0 : Fin 1) rfl rfl,
    idx2_ext (idx_main_v5 (idx_main_v7 (ix2 r j))) j (0 : Fin 1) rfl rfl, el_apply, er_apply]

/-- The rectified score at (r, j). -/
theorem leaky_apply (r j : Fin 4096) :
    val_main_v13 (F := Ideal) x0 x2 x3 x4 (ix2 r j) = leaky (Ideal.ofBits .f32 0x3E4CCCCD#32) ((∑ k : Fin 64, val_main_v0 (F := Ideal) x0 x2 (ix2 r k) * x3 (ix2 (0 : Fin 1) k)) + (∑ k : Fin 64, val_main_v0 (F := Ideal) x0 x2 (ix2 j k) * x4 (ix2 (0 : Fin 1) k))) := by
  rw [val_main_v13_apply, val_main_v10_apply, val_main_v12_apply, val_main_v9_apply, val_main_v11_apply,
    val_main_cst_apply, val_main_cst_0_apply, score_apply]
  simp only [Ideal.cmpf_def, Ideal.mulf_def, Ideal.ofBits_def, Ideal.ofBits_zero_f32]
  rfl

/-- The masked weight at (r, j). -/
theorem weight_apply (r j : Fin 4096) :
    val_main_v17 (F := Ideal) x0 x1 x2 x3 x4 (ix2 r j) = (refW (Ideal.ofBits .f32 0x3E4CCCCD#32) (∑ k : Fin 64, val_main_v0 (F := Ideal) x0 x2 (ix2 r k) * x3 (ix2 (0 : Fin 1) k)) (∑ k : Fin 64, val_main_v0 (F := Ideal) x0 x2 (ix2 j k) * x4 (ix2 (0 : Fin 1) k)) (x1 (ix2 r j))) := by
  rw [val_main_v17_apply, val_main_v16_apply, val_main_v14_apply, val_main_v15_apply, val_main_call1_v0_apply,
    val_main_cst_1_apply, val_main_cst_2_apply, leaky_apply]
  simp only [Ideal.cmpf_def, Ideal.hostUnary_exp_def, Ideal.ofBits_def, Ideal.ofBits_zero_f32]
  rfl

/-- The absolute value of the masked weight at (r, j). -/
theorem abs_apply (r j : Fin 4096) :
    val_main_v18 (F := Ideal) x0 x1 x2 x3 x4 (ix2 r j) = max (refW (Ideal.ofBits .f32 0x3E4CCCCD#32) (∑ k : Fin 64, val_main_v0 (F := Ideal) x0 x2 (ix2 r k) * x3 (ix2 (0 : Fin 1) k)) (∑ k : Fin 64, val_main_v0 (F := Ideal) x0 x2 (ix2 j k) * x4 (ix2 (0 : Fin 1) k)) (x1 (ix2 r j))) (-(refW (Ideal.ofBits .f32 0x3E4CCCCD#32) (∑ k : Fin 64, val_main_v0 (F := Ideal) x0 x2 (ix2 r k) * x3 (ix2 (0 : Fin 1) k)) (∑ k : Fin 64, val_main_v0 (F := Ideal) x0 x2 (ix2 j k) * x4 (ix2 (0 : Fin 1) k)) (x1 (ix2 r j)))) := by
  rw [val_main_v18_apply, weight_apply]
  rfl

/-- The floored L1 mass of row r. -/
theorem mass_apply (r : Fin 4096) :
    val_main_v22 (F := Ideal) x0 x1 x2 x3 x4 (ix2 r (0 : Fin 1)) = (max (0 + ∑ j' : Fin 4096, max (refW (Ideal.ofBits .f32 0x3E4CCCCD#32) (∑ k : Fin 64, val_main_v0 (F := Ideal) x0 x2 (ix2 r k) * x3 (ix2 (0 : Fin 1) k)) (∑ k : Fin 64, val_main_v0 (F := Ideal) x0 x2 (ix2 j' k) * x4 (ix2 (0 : Fin 1) k)) (x1 (ix2 r j'))) (-(refW (Ideal.ofBits .f32 0x3E4CCCCD#32) (∑ k : Fin 64, val_main_v0 (F := Ideal) x0 x2 (ix2 r k) * x3 (ix2 (0 : Fin 1) k)) (∑ k : Fin 64, val_main_v0 (F := Ideal) x0 x2 (ix2 j' k) * x4 (ix2 (0 : Fin 1) k)) (x1 (ix2 r j'))))) (Ideal.ofBits .f32 0x2B8CBCCC#32)) := by
  rw [val_main_v22_apply, val_main_v20_apply, val_main_v21_apply, val_main_cst_4_apply, val_main_v19_apply,
    val_main_cst_3_apply]
  simp only [Ideal.maximumf_def, Ideal.ofBits_def, Ideal.ofBits_zero_f32]
  refine congrArg (fun s => max (0 + s) (Ideal.ofBits .f32 0x2B8CBCCC#32)) (Finset.sum_congr rfl fun k _ => ?_)
  rw [idx1_ext (idx_main_v20 (ix2 r (0 : Fin 1))) r rfl, idx2_ext (idx_main_v19 (ix1 r) k) r k rfl rfl, abs_apply]

/-- The normalised weight at (r, j). -/
theorem div_apply (r j : Fin 4096) :
    val_main_v24 (F := Ideal) x0 x1 x2 x3 x4 (ix2 r j) = Ideal.div (refW (Ideal.ofBits .f32 0x3E4CCCCD#32) (∑ k : Fin 64, val_main_v0 (F := Ideal) x0 x2 (ix2 r k) * x3 (ix2 (0 : Fin 1) k)) (∑ k : Fin 64, val_main_v0 (F := Ideal) x0 x2 (ix2 j k) * x4 (ix2 (0 : Fin 1) k)) (x1 (ix2 r j))) (max (0 + ∑ j' : Fin 4096, max (refW (Ideal.ofBits .f32 0x3E4CCCCD#32) (∑ k : Fin 64, val_main_v0 (F := Ideal) x0 x2 (ix2 r k) * x3 (ix2 (0 : Fin 1) k)) (∑ k : Fin 64, val_main_v0 (F := Ideal) x0 x2 (ix2 j' k) * x4 (ix2 (0 : Fin 1) k)) (x1 (ix2 r j'))) (-(refW (Ideal.ofBits .f32 0x3E4CCCCD#32) (∑ k : Fin 64, val_main_v0 (F := Ideal) x0 x2 (ix2 r k) * x3 (ix2 (0 : Fin 1) k)) (∑ k : Fin 64, val_main_v0 (F := Ideal) x0 x2 (ix2 j' k) * x4 (ix2 (0 : Fin 1) k)) (x1 (ix2 r j'))))) (Ideal.ofBits .f32 0x2B8CBCCC#32)) := by
  rw [val_main_v24_apply, val_main_v23_apply, Ideal.hostDivf_def,
    idx2_ext (idx_main_v23 (ix2 r j)) r (0 : Fin 1) rfl rfl, weight_apply, mass_apply]

/-- THE REFERENCE AT ENTRY (r, q): the specification's row, plus the bias of column q. -/
theorem ref_apply (r : Fin 4096) (q : Fin 64) :
    val_main_v28 (F := Ideal) x0 x1 x2 x3 x4 x5 (ix2 r q)
      = refRow (Ideal.ofBits .f32 0x3E4CCCCD#32) (Ideal.ofBits .f32 0x2B8CBCCC#32)
          (∑ k : Fin 64, val_main_v0 (F := Ideal) x0 x2 (ix2 r k) * x3 (ix2 (0 : Fin 1) k))
          (fun j : Fin 4096 => (∑ k : Fin 64, val_main_v0 (F := Ideal) x0 x2 (ix2 j k) * x4 (ix2 (0 : Fin 1) k)))
          (fun j : Fin 4096 => x1 (ix2 r j))
          (fun j : Fin 4096 => val_main_v0 (F := Ideal) x0 x2 (ix2 j q))
        + x5 (ix1 q) := by
  rw [val_main_v28_apply, val_main_v27_apply, val_main_v26_apply, val_main_v25_apply, Ideal.addf_def,
    idx1_ext (idx_main_v26 (idx_main_v27 (ix2 r q))) q rfl]
  refine congrArg (· + x5 (ix1 q)) ?_
  unfold refRow
  refine Finset.sum_congr rfl fun j _ => ?_
  rw [idx2_ext (lidx_main_v25 (ix2 r q) j) r j rfl rfl, idx2_ext (ridx_main_v25 (ix2 r q) j) j q rfl rfl,
    div_apply]

end Cert.RefIdx

end
-- ==== Proof.KerRef.lean ====
/-
  The second spelling of the row, over the projected features x = H · W, equals the reference program at
  entry (r, q) on admissible inputs. Every entry of H, W, AL, AR is a real number and every adjacency entry
  is 0 or 1, so the features, the left score and every right score are real numbers (finite sums of products
  of reals); the slope literal is a real in [0, 1] and the floor literal a positive real. On such arguments
  the two spellings of the row agree, and the reference at (r, q) is the first spelling at the same left score,
  right scores (a product of two reals commutes), adjacency entries and feature column, plus the bias.
-/
import proofs.«105371_g26414048870624_cont_sun_m_177_26_alg».proof.Proof.RowLaw
import proofs.«105371_g26414048870624_cont_sun_m_177_26_alg».proof.Proof.RefIdx

noncomputable section

namespace Cert.KerRef

open Cert.ReferenceIdeal Cert.ReferenceIdeal.Read Cert.GatSpec Cert.RefIdx Idealize.ShloMosaic Idealize.ShloMosaic.ValueIdx

/-- The row formula over the projected features, plus the bias, is the reference at entry (r, q). -/
theorem ker_eq_ref (H : (⟨S4096x128, .f32⟩ : BufTy).Contents (Elt Ideal))
    (A : (⟨S4096x4096, .f32⟩ : BufTy).Contents (Elt Ideal)) (W : (⟨S128x64, .f32⟩ : BufTy).Contents (Elt Ideal))
    (AL AR : (⟨S1x64, .f32⟩ : BufTy).Contents (Elt Ideal)) (B : (⟨S64, .f32⟩ : BufTy).Contents (Elt Ideal))
    (hH : ∀ i, ∃ r : ℝ, H i = (r : EReal)) (hA : ∀ i, A i = (0 : EReal) ∨ A i = (1 : EReal))
    (hW : ∀ i, ∃ r : ℝ, W i = (r : EReal)) (hAL : ∀ i, ∃ r : ℝ, AL i = (r : EReal))
    (hAR : ∀ i, ∃ r : ℝ, AR i = (r : EReal))
    (x : Fin 4096 → Fin 64 → EReal) (hx : ∀ j k, x j k = ∑ i : Fin 128, H (ix2 j i) * W (ix2 i k))
    (r : Fin 4096) (q : Fin 64) :
    kerRow (Ideal.ofBits .f32 0x3E4CCCCD#32) (Ideal.ofBits .f32 0x2B8CBCCC#32)
        (∑ k : Fin 64, x r k * AL (ix2 (0 : Fin 1) k))
        (fun j : Fin 4096 => ∑ i : Fin 64, AR (ix2 (0 : Fin 1) i) * x j i)
        (fun j : Fin 4096 => A (ix2 r j))
        (fun j : Fin 4096 => x j q)
      + B (ix1 q)
    = val_main_v28 (F := Ideal) H A W AL AR B (ix2 r q) := by
  rw [ref_apply]
  refine congrArg (· + B (ix1 q)) ?_
  -- the reference's features are x
  have hv : ∀ j k, val_main_v0 (F := Ideal) H W (ix2 j k) = x j k :=
    fun j k => (feat_apply H W j k).trans (hx j k).symm
  simp only [hv]
  -- the features, the left score and the right scores are real numbers
  have hxreal : ∀ j k, ∃ t : ℝ, x j k = (t : EReal) := fun j k => by
    rw [hx]
    exact exists_real_sum_mul (fun i => H (ix2 j i)) (fun i => W (ix2 i k)) (fun _ => hH _) (fun _ => hW _)
  choose xr hxr using hxreal
  obtain ⟨el, hel⟩ : ∃ t : ℝ, ∑ k : Fin 64, x r k * AL (ix2 (0 : Fin 1) k) = (t : EReal) :=
    exists_real_sum_mul (fun k => x r k) (fun k => AL (ix2 (0 : Fin 1) k)) (fun k => ⟨xr r k, hxr r k⟩)
      (fun _ => hAL _)
  have her : ∀ j, ∃ t : ℝ, ∑ i : Fin 64, AR (ix2 (0 : Fin 1) i) * x j i = (t : EReal) := fun j =>
    exists_real_sum_mul (fun i => AR (ix2 (0 : Fin 1) i)) (fun i => x j i) (fun _ => hAR _)
      (fun i => ⟨xr j i, hxr j i⟩)
  choose er her using her
  -- the adjacency entries are the reals 0 and 1
  have hadj : ∀ j, ∃ t : ℝ, A (ix2 r j) = (t : EReal) ∧ (t = 0 ∨ t = 1) := fun j => by
    rcases hA (ix2 r j) with h | h
    · exact ⟨0, by rw [h, EReal.coe_zero], Or.inl rfl⟩
    · exact ⟨1, by rw [h, EReal.coe_one], Or.inr rfl⟩
  choose adj hadj hadj01 using hadj
  -- the two literals
  obtain ⟨c, hc, hc0, hc1⟩ := lit_slope
  obtain ⟨ε, hε, hεpos⟩ := lit_floor
  -- everything in coerced form
  have e1 : (fun j : Fin 4096 => ∑ i : Fin 64, AR (ix2 (0 : Fin 1) i) * x j i) = fun j => (er j : EReal) :=
    funext her
  have e1' : (fun j : Fin 4096 => ∑ k : Fin 64, x j k * AR (ix2 (0 : Fin 1) k)) = fun j => (er j : EReal) :=
    funext fun j => by
      rw [← her j]
      exact Finset.sum_congr rfl fun _ _ => mul_comm _ _
  have e2 : (fun j : Fin 4096 => A (ix2 r j)) = fun j => (adj j : EReal) := funext hadj
  have e3 : (fun j : Fin 4096 => x j q) = fun j => (xr j q : EReal) := funext fun j => hxr j q
  rw [e1, e1', e2, e3, hel, hc, hε]
  exact row_law c ε el er adj (fun j => xr j q) hc0 hc1 hεpos hadj01

end Cert.KerRef

end
-- ==== Proof.PreFacts.lean ====
/-
  The printed precondition read back, element by element, at the extended reals. The precondition is a
  conjunction of seven "for all entries" tests: for each of the six float arrays, that the absolute value of
  every entry is below plus infinity; and for the adjacency array, that every entry equals 0.0 or equals 1.0.
  An extended real whose absolute value max x (-x) is below plus infinity is neither infinity, hence a real
  number; the bit pattern 0x7F800000 denotes plus infinity, 0x00000000 denotes 0 and 0x3F800000 denotes 1.
  So: every entry of the five float arrays named below is a real number, and every entry of the adjacency
  array is 0 or 1.
-/
import proofs.«105371_g26414048870624_cont_sun_m_177_26_alg».proof.Pre_finite_inputs
import proofs.«105371_g26414048870624_cont_sun_m_177_26_alg».proof.Proof.Gen.Pre_finite_inputs
import Idealize.ShloMosaic.PureOps.Ideal
import Idealize.ShloMosaic.Lib.ReduceAll
import Idealize.ShloMosaic.Lib.ValueIdx
import Idealize.ShloMosaic.Lib.WordArith
import Idealize.ShloMosaic.Lib.IdealHost

noncomputable section

namespace Cert.PreFacts

open Idealize.ShloMosaic Idealize.ShloMosaic.ValueIdx Idealize.ShloMosaic.WordArith
open Cert.Pre_finite_inputs

/-- The shape of a scalar has exactly one index. -/
instance subsingleton_scalar_idx : Subsingleton S_.Idx := ⟨fun a b => funext fun d => d.elim0⟩

/-- The f32 pattern of an all-ones exponent, zero fraction and clear sign is plus infinity. -/
theorem ofBits_inf_f32 : Ideal.ofBits .f32 0x7F800000#32 = (⊤ : EReal) := by
  simp [Ideal.ofBits, Ideal.ieee]

/-- An extended real whose absolute value is below plus infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The ordered "less than" test that is 1 says the order relation holds. -/
theorem cmp_olt_eq_one (x y : EReal) : Ideal.cmp .olt x y = 1#1 ↔ x < y := by
  unfold Ideal.cmp
  rw [ofBool_eq_one_iff, decide_eq_true_eq]

/-- The ordered "equal" test that is 1 says the two are equal. -/
theorem cmp_oeq_eq_one (x y : EReal) : Ideal.cmp .oeq x y = 1#1 ↔ x = y := by
  unfold Ideal.cmp
  rw [ofBool_eq_one_iff, decide_eq_true_eq]

/-- One array's test "every |x| is below plus infinity", passed: every entry is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32))) init hr hu ix0
          = 1#1)
    (i : s.Idx) : ∃ r : ℝ, x i = (r : EReal) := by
  have h1 := Host.reduce_andi_all _ init hr hu ix0 e i
  have h2 : Ideal.cmp .olt (max (x i) (-(x i))) (Ideal.ofBits .f32 0x7F800000#32) = 1#1 := h1
  rw [ofBits_inf_f32, cmp_olt_eq_one] at h2
  exact real_of_abs_lt_top _ h2

/-- The adjacency array's test "every x is 0.0 or 1.0", passed: every entry is 0 or 1. -/
theorem zero_or_one_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (ori (cmpf .oeq x (broadcastInDim s ![] hb (constant (F := Ideal) S_ .f32 0x00000000#32)))
               (cmpf .oeq x (broadcastInDim s ![] hb (constant (F := Ideal) S_ .f32 0x3F800000#32)))) init hr hu ix0
          = 1#1)
    (i : s.Idx) : x i = (0 : EReal) ∨ x i = (1 : EReal) := by
  have h1 := Host.reduce_andi_all _ init hr hu ix0 e i
  have h2 : IntOp.ori (Ideal.cmp .oeq (x i) (Ideal.ofBits .f32 0x00000000#32))
      (Ideal.cmp .oeq (x i) (Ideal.ofBits .f32 0x3F800000#32)) = 1#1 := h1
  rw [IntOp.ori_eq_one, cmp_oeq_eq_one, cmp_oeq_eq_one, Ideal.ofBits_zero_f32, Ideal.ofBits_one_f32] at h2
  exact h2

/-- THE PRECONDITION DECODED: the five float arrays hold real numbers, the adjacency array zeros and ones. -/
theorem decode [Cert.Pre_finite_inputs.Facts]
    (a0 : FVec Ideal S4096x128 .f32) (a1 : FVec Ideal S4096x4096 .f32) (a2 : FVec Ideal S128x64 .f32)
    (a3 a4 : FVec Ideal S1x64 .f32) (a5 : FVec Ideal S64 .f32)
    (h : Cert.Pre_finite_inputs.fn (F := Ideal) a0 a1 a2 a3 a4 a5 = (fun _ => 1#1)) :
    (∀ i, ∃ r : ℝ, a0 i = (r : EReal)) ∧ (∀ i, a1 i = (0 : EReal) ∨ a1 i = (1 : EReal)) ∧
    (∀ i, ∃ r : ℝ, a2 i = (r : EReal)) ∧ (∀ i, ∃ r : ℝ, a3 i = (r : EReal)) ∧
    (∀ i, ∃ r : ℝ, a4 i = (r : EReal)) := by
  have e := congrFun h ix0
  dsimp only [Cert.Pre_finite_inputs.fn, Cert.Pre_finite_inputs.fn_part1, Cert.Pre_finite_inputs.fn_part2] at e
  obtain ⟨e, h01⟩ := IntOp.andi_eq_one.1 e
  obtain ⟨e, -⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, -⟩ := IntOp.andi_eq_one.1 e
  exact ⟨real_of_all a0 _ _ _ _ h0, zero_or_one_of_all a1 _ _ _ _ h01, real_of_all a2 _ _ _ _ h2,
    real_of_all a3 _ _ _ _ h3, real_of_all a4 _ _ _ _ h4⟩

end Cert.PreFacts

end
-- ==== Proof.Whole.lean ====
/-
  The kernel's result array as ONE function of its argument arrays.
  Under the precondition (every entry of the five float arrays a real number, every adjacency entry 0 or 1) what
  grid point `t` writes back is rows 512·t … 512·t + 511 of the reference's formula read at the same argument
  arrays; the eight blocks tile the 4096 rows, so the array after the run is that formula everywhere.
-/
import proofs.«105371_g26414048870624_cont_sun_m_177_26_alg».proof.Proof.BlockValue
import proofs.«105371_g26414048870624_cont_sun_m_177_26_alg».proof.Proof.KerRef
import proofs.«105371_g26414048870624_cont_sun_m_177_26_alg».proof.Proof.PreFacts
import proofs.«105371_g26414048870624_cont_sun_m_177_26_alg».proof.Defs

set_option maxRecDepth 16384

noncomputable section

namespace Cert.KernelIdeal.Whole

open Cert.KernelIdeal Cert.KernelIdeal.Gen Cert.KernelIdeal.Carried Cert.KernelIdeal.PayIdx Cert.KernelIdeal.BlockValue Cert.GatSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The reference's formula read at the kernel's argument arrays. -/
def G (c : Dev nD) : S4096x64.Idx → EReal :=
  Cert.ReferenceIdeal.Read.val_main_v28 (F := Ideal) (aH m c) (aA m c) (aW m c) (aAL m c) (aAR m c) (aB m c)

/-- What the precondition says of the arrays as the region finds them. -/
theorem facts_of_pre (hpre : Cert.Pre_KernelIdeal m) (c : Dev nD) :
    (∀ i, ∃ r : ℝ, aH m c i = (r : EReal)) ∧ (∀ i, aA m c i = (0 : EReal) ∨ aA m c i = (1 : EReal))
      ∧ (∀ i, ∃ r : ℝ, aW m c i = (r : EReal)) ∧ (∀ i, ∃ r : ℝ, aAL m c i = (r : EReal)) ∧ (∀ i, ∃ r : ℝ, aAR m c i = (r : EReal)) := by
  have h := Cert.PreFacts.decode _ _ _ _ _ _ (hpre c)
  have e0 : aH m c = m ((c : Thread nD τ).loc main_arg0) := V_main_arg0 m c
  have e1 : aA m c = m ((c : Thread nD τ).loc main_arg1) := V_main_arg1 m c
  have e2 : aW m c = m ((c : Thread nD τ).loc main_arg2) := V_main_arg2 m c
  have e3 : aAL m c = m ((c : Thread nD τ).loc main_arg3) := V_main_arg3 m c
  have e4 : aAR m c = m ((c : Thread nD τ).loc main_arg4) := V_main_arg4 m c
  rw [e0, e1, e2, e3, e4]
  exact h

/-- WHAT POINT `t` WRITES BACK is block `t` of the reference's formula. -/
theorem flushed_eq (hpre : Cert.Pre_KernelIdeal m) (c : Dev nD) (t : Fin cfg0.N) :
    (dats m 0 c).flushed 6 t = ((cfg0.win 6).blk t).view.read (Elt Ideal) (G m c) := by
  obtain ⟨hH, hA, hW, hAL, hAR⟩ := facts_of_pre m hpre c
  rw [Cert.KernelIdeal.Value.flushed6]
  refine funext fun (y : S512x64.Idx) => ?_
  obtain ⟨p, q, rfl⟩ : ∃ (p : Fin 512) (q : Fin 64), y = ix2 p q := ⟨y 0, y 1, eq_ix2 y⟩
  have e0 := (idx_facts t).2.2.2.2.2.2.2.2.2.2.2.2.1
  have e1 := (idx_facts t).2.2.2.2.2.2.2.2.2.2.2.2.2
  have hN : t.val < 8 := lt_of_lt_of_eq t.isLt N_0
  have hemb : ((cfg0.win 6).blk t).view.emb (ix2 p q) = ix2 (⟨512 * t.val + p.val, by omega⟩ : Fin 4096) q :=
    funext fun a => Fin.ext (by
      match a with
      | ⟨0, _⟩ => show win0_6.index t (0 : Fin 2) * 512 + 1 * p.val = 512 * t.val + p.val; omega
      | ⟨1, _⟩ => show win0_6.index t (1 : Fin 2) * 64 + 1 * q.val = q.val; omega)
  show (outsAt0 m c t.val t.isLt).1 (ix2 p q) = G m c (((cfg0.win 6).blk t).view.emb (ix2 p q))
  rw [hemb, block_apply m c t p q (⟨512 * t.val + p.val, by omega⟩ : Fin 4096) rfl]
  exact Cert.KerRef.ker_eq_ref (aH m c) (aA m c) (aW m c) (aAL m c) (aAR m c) (aB m c) hH hA hW hAL hAR
    (proj m c) (proj_eq m c) _ q

/-- An index of the result array is in point `t`'s block iff each coordinate is in the block's range. -/
theorem mem_blk (t : Fin cfg0.N) (i : S4096x64.Idx) :
    i ∈ ((cfg0.win 6).blk t).view.set ↔ ∀ a : Fin 2, win0_6.index t a * S512x64.size a ≤ (i a).val ∧ (i a).val < win0_6.index t a * S512x64.size a + S512x64.size a := by
  show i ∈ ((View.whole main_v0).slice (win0_6.rect t)).set ↔ _
  rw [View.set_slice_whole, Rect.mem_set_unit]
  exact Iff.rfl

/-- The eight blocks of 512 rows cover the 4096 rows: row `r` is in the block of point `r / 512`. -/
theorem cover (i : S4096x64.Idx) : ∃ t : Fin cfg0.N, (cfg0.win 6).flush t = true ∧ i ∈ ((cfg0.win 6).blk t).view.set := by
  have hi0 : (i 0).val < 4096 := (i 0).isLt
  have hi1 : (i 1).val < 64 := (i 1).isLt
  have hN : cfg0.N = 8 := N_0
  let t : Fin cfg0.N := ⟨(i 0).val / 512, by omega⟩
  have e0 : win0_6.index t (0 : Fin 2) = (i 0).val / 512 := (idx_facts t).2.2.2.2.2.2.2.2.2.2.2.2.1
  have e1 : win0_6.index t (1 : Fin 2) = 0 := (idx_facts t).2.2.2.2.2.2.2.2.2.2.2.2.2
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 64 ≤ (i 1).val ∧ (i 1).val < win0_6.index t (1 : Fin 2) * 64 + 64; omega

/-- THE ARRAY after the run is the reference's formula of the argument arrays. -/
theorem final (hpre : Cert.Pre_KernelIdeal m) (c : Dev nD) : (dats m 0 c).arrAt 6 cfg0.N = G m c :=
  (dats m 0 c).arrAt_eq_of_cover 6 (G m c) (fun t _ => flushed_eq m hpre c t) cover

/-- The kernel's run re-posted: the result array at the reference's formula, the arguments unchanged. -/
theorem run (hpre : Cert.Pre_KernelIdeal m) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m hpre c), (h c).2⟩) (Cert.KernelIdeal.Value.run_blocks m ρ)

/-- The formula at the launched arrays: the region finds the arguments as launched. -/
theorem G_eq (c : Dev nD) :
    G m c = Cert.ReferenceIdeal.Read.val_main_v28 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  have e0 : aH m c = m ((c : Thread nD τ).loc main_arg0) := V_main_arg0 m c
  have e1 : aA m c = m ((c : Thread nD τ).loc main_arg1) := V_main_arg1 m c
  have e2 : aW m c = m ((c : Thread nD τ).loc main_arg2) := V_main_arg2 m c
  have e3 : aAL m c = m ((c : Thread nD τ).loc main_arg3) := V_main_arg3 m c
  have e4 : aAR m c = m ((c : Thread nD τ).loc main_arg4) := V_main_arg4 m c
  unfold G
  rw [e0, e1, e2, e3, e4]

end Cert.KernelIdeal.Whole

end
-- ==== Proof.lean ====
/-
  A graph-attention layer: kernel against reference, on the extended reals.
  Both programs project the node features, x = h·W, and score every pair of nodes by el_i + er_j with
  el = x·a_lᵀ, er = x·a_rᵀ. The reference applies the leaky rectifier and the exponential to the score, keeps the
  weight where the adjacency entry is not zero, divides every weight by its row's L1 mass (floored), and sums the
  weighted features. The kernel never forms exp of the rectified score: because the slope is at most one,
  exp (leaky (el + er)) = max (exp el · exp er) (exp (c·el) · exp (c·er)), so it multiplies per-node exponentials;
  it masks by multiplying with the adjacency entry; and it divides once, after the weighted sum, by the sum of the
  weights, which it gets from the same matrix product through a column of ones appended to the features.
  The two agree when every input is a real number and every adjacency entry is 0 or 1 — the precondition: the mask
  then is the product, each weight is a nonnegative real and its own absolute value, and over the reals a common
  positive divisor moves across a finite sum.
  The kernel computes the projection and the right-hand exponentials once, at the first grid point, into buffers it
  keeps across the grid; every grid point then writes 512 rows of the result, and the eight blocks tile the array.
-/
import proofs.«105371_g26414048870624_cont_sun_m_177_26_alg».proof.Defs
import proofs.«105371_g26414048870624_cont_sun_m_177_26_alg».proof.Proof.Gen.Kernel
import proofs.«105371_g26414048870624_cont_sun_m_177_26_alg».proof.Proof.Gen.Kernel.Skeleton
import proofs.«105371_g26414048870624_cont_sun_m_177_26_alg».proof.Proof.Gen.Kernel.Launch
import proofs.«105371_g26414048870624_cont_sun_m_177_26_alg».proof.Proof.Gen.Kernel.Points
import proofs.«105371_g26414048870624_cont_sun_m_177_26_alg».proof.Proof.Gen.Kernel.Frame
import proofs.«105371_g26414048870624_cont_sun_m_177_26_alg».proof.Proof.Gen.KernelIdeal
import proofs.«105371_g26414048870624_cont_sun_m_177_26_alg».proof.Proof.Gen.KernelIdeal.Skeleton
import proofs.«105371_g26414048870624_cont_sun_m_177_26_alg».proof.Proof.Gen.KernelIdeal.Launch
import proofs.«105371_g26414048870624_cont_sun_m_177_26_alg».proof.Proof.Gen.KernelIdeal.Points
import proofs.«105371_g26414048870624_cont_sun_m_177_26_alg».proof.Proof.Gen.KernelIdeal.Frame
import proofs.«105371_g26414048870624_cont_sun_m_177_26_alg».proof.Proof.Gen.ReferenceIdeal
import proofs.«105371_g26414048870624_cont_sun_m_177_26_alg».proof.Proof.Gen.KernelIdeal.Value
import proofs.«105371_g26414048870624_cont_sun_m_177_26_alg».proof.Proof.Gen.ReferenceIdeal.Run
import proofs.«105371_g26414048870624_cont_sun_m_177_26_alg».proof.Proof.Gen.ReferenceIdeal.Read
import proofs.«105371_g26414048870624_cont_sun_m_177_26_alg».proof.Proof.Gen.Pre_finite_inputs
import proofs.«105371_g26414048870624_cont_sun_m_177_26_alg».proof.Proof.Whole
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, under the precondition, the kernel's result array ends at the
    reference's formula of its own arguments, and the reference's at the same formula of the same arrays. -/
theorem algebraic : Cert.algebraic_KernelIdeal_ReferenceIdeal := by
  intro m ρ m' ρ' hpre hagree
  refine ⟨fun c => Cert.KernelIdeal.Whole.G m c, Cert.KernelIdeal.Whole.run m ρ hpre, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Whole.G m c
  rw [Cert.ReferenceIdeal.Read.val_main_v28_eq, Cert.KernelIdeal.Whole.G_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
